-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S64x5 : Shape := ⟨2, ![64, 5]⟩
abbrev S64 : Shape := ⟨1, ![64]⟩
abbrev S64x64 : Shape := ⟨2, ![64, 64]⟩
abbrev S2x3200000 : Shape := ⟨2, ![2, 3200000]⟩
abbrev S100000 : Shape := ⟨1, ![100000]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S64x5 : S_.BroadcastsInDim S64x5 (![] : Fin 0 → Fin S64x5.rank)
  reducesTo_S64x5_S_d0_1 : S64x5.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S100000x6 .f32) (main_arg1 : FVec F S64x5 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : IVec S2x3200000 32) (main_arg10 : IVec S100000 32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S64x5 .f32 := Host.absf main_arg1
  let main_cst_0 : FVec F S_ .f32 := constant S_ .f32 0x7F800000#32
  let main_v5 : FVec F S64x5 .f32 := broadcastInDim S64x5 ![] bcast_S_S64x5 main_cst_0
  let main_v6 : IVec S64x5 1 := cmpf .olt main_v4 main_v5
  let main_c_1 : IVec S_ 1 := constantI S_ 1 1#1
  let main_v7 : IVec S_ 1 := (fun x v => Host.reduce IntOp.andi x v reducesTo_S64x5_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S100000x6 : Shape := ⟨2, ![100000, 6]⟩
abbrev S64x5 : Shape := ⟨2, ![64, 5]⟩
abbrev S64 : Shape := ⟨1, ![64]⟩
abbrev S64x64 : Shape := ⟨2, ![64, 64]⟩
abbrev S2x3200000 : Shape := ⟨2, ![2, 3200000]⟩
abbrev S100000 : Shape := ⟨1, ![100000]⟩
abbrev S100000x5 : Shape := ⟨2, ![100000, 5]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S20000x5 : Shape := ⟨2, ![20000, 5]⟩
abbrev S20000x64 : Shape := ⟨2, ![20000, 64]⟩
abbrev S5x64 : Shape := ⟨2, ![5, 64]⟩
abbrev S3300000x64 : Shape := ⟨2, ![3300000, 64]⟩
abbrev S1x64 : Shape := ⟨2, ![1, 64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩

abbrev nBuf : Space → Nat
  | .hbm => 107
  | .vmem => 27
  | .smem => 0
  | _ => 0

abbrev bufTy : (tb : Table) → Fin (tcTables nBuf tb) → BufTy
  | .hbm, ⟨0, _⟩ => ⟨S100000x6, .f32⟩
  | .hbm, ⟨1, _⟩ => ⟨S64x5, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S2x3200000, .i32⟩
  | .hbm, ⟨10, _⟩ => ⟨S100000, .i32⟩
  | .hbm, ⟨11, _⟩ => ⟨S100000x5, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S100000, .i32⟩
  | .hbm, ⟨17, _⟩ => ⟨S3300000, .i32⟩
  | .hbm, ⟨18, _⟩ => ⟨S3300000, .i32⟩
  | .hbm, ⟨19, _⟩ => ⟨S_, .f32⟩
  | .hbm, ⟨20, _⟩ => ⟨S3300000, .f32⟩
  | .hbm, ⟨21, _⟩ => ⟨S_, .f32⟩
  | .hbm, ⟨22, _⟩ => ⟨S100000, .f32⟩
  | .hbm, ⟨23, _⟩ => ⟨S3300000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000, .f32⟩
  | .hbm, ⟨54, _⟩ => ⟨S3300000, .f32⟩
  | .hbm, ⟨55, _⟩ => ⟨S100000x64, .f32⟩
  | .hbm, ⟨56, _⟩ => ⟨S_, .i32⟩
  | .hbm, ⟨57, _⟩ => ⟨S3300000, .i32⟩
  | .hbm, ⟨58, _⟩ => ⟨S3300000, .i1⟩
  | .hbm, ⟨59, _⟩ => ⟨S_, .i32⟩
  | .hbm, ⟨60, _⟩ => ⟨S3300000, .i32⟩
  | .hbm, ⟨61, _⟩ => ⟨S3300000, .i32⟩
  | .hbm, ⟨62, _⟩ => ⟨S3300000, .i32⟩
  | .hbm, ⟨63, _⟩ => ⟨S3300000x1, .i32⟩
  | .hbm, ⟨64, _⟩ => ⟨S3300000x64, .f32⟩
  | .hbm, ⟨65, _⟩ => ⟨S3300000x1, .f32⟩
  | .hbm, ⟨66, _⟩ => ⟨S3300000x64, .f32⟩
  | .hbm, ⟨67, _⟩ => ⟨S3300000x64, .f32⟩
  | .hbm, ⟨68, _⟩ => ⟨S_, .f32⟩
  | .hbm, ⟨69, _⟩ => ⟨S100000x64, .f32⟩
  | .hbm, ⟨70, _⟩ => ⟨S3300000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x64, .f32⟩
  | .hbm, ⟨84, _⟩ => ⟨S3300000x1, .f32⟩
  | .hbm, ⟨85, _⟩ => ⟨S3300000x64, .f32⟩
  | .hbm, ⟨86, _⟩ => ⟨S3300000x64, .f32⟩
  | .hbm, ⟨87, _⟩ => ⟨S_, .f32⟩
  | .hbm, ⟨88, _⟩ => ⟨S100000x64, .f32⟩
  | .hbm, ⟨89, _⟩ => ⟨S3300000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S_, .f32⟩
  | .hbm, ⟨94, _⟩ => ⟨S128x64, .f32⟩
  | .hbm, ⟨95, _⟩ => ⟨S100000x1, .i32⟩
  | .hbm, ⟨96, _⟩ => ⟨S128x64, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S128, .f32⟩
  | .hbm, ⟨101, _⟩ => ⟨S100000x1, .i32⟩
  | .hbm, ⟨102, _⟩ => ⟨S128, .f32⟩
  | .hbm, ⟨103, _⟩ => ⟨S128x1, .f32⟩
  | .hbm, ⟨104, _⟩ => ⟨S1x64, .f32⟩
  | .hbm, ⟨105, _⟩ => ⟨S1x64, .f32⟩
  | .hbm, ⟨106, _⟩ => ⟨S128x64, .f32⟩
  | .local _ .vmem, ⟨0, _⟩ => ⟨S20000x5, .f32⟩
  | .local _ .vmem, ⟨1, _⟩ => ⟨S20000x5, .f32⟩
  | .local _ .vmem, ⟨2, _⟩ => ⟨S64x5, .f32⟩
  | .local _ .vmem, ⟨3, _⟩ => ⟨S20000x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S1x64, .f32⟩
  | .local _ .vmem, ⟨8, _⟩ => ⟨S20000x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S64x64, .f32⟩
  | .local _ .vmem, ⟨13, _⟩ => ⟨S20000x64, .f32⟩
  | .local _ .vmem, ⟨14, _⟩ => ⟨S20000x64, .f32⟩
  | .local _ .vmem, ⟨15, _⟩ => ⟨S20000x64, .f32⟩
  | .local _ .vmem, ⟨16, _⟩ => ⟨S20000x64, .f32⟩
  | .local _ .vmem, ⟨17, _⟩ => ⟨S1x64, .f32⟩
  | .local _ .vmem, ⟨18, _⟩ => ⟨S20000x64, .f32⟩
  | .local _ .vmem, ⟨19, _⟩ => ⟨S20000x64, .f32⟩
  | .local _ .vmem, ⟨20, _⟩ => ⟨S128x64, .f32⟩
  | .local _ .vmem, ⟨21, _⟩ => ⟨S128x1, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S128x64, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc4_stg6_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25
abbrev cc4_sem6_0 : DmaSem sig := 26

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S100000x6_S100000x5_0_1 : S100000x6.Slices ![0, 1] S100000x5
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S20000x5_S20000x5_0_0 : ∀ a, (![0, 0] : Fin 2 → Nat) a + S20000x5.size a ≤ S20000x5.size a
  h_S20000x5 : 0 < S20000x5.numel
  shapeCasts_S20000x5_S20000x5 : S20000x5.ShapeCasts S20000x5
  bitsLt_bf16_f32 : FTy.bits .bf16 < FTy.bits .f32
  inb_S64x5_S64x5_0_0 : ∀ a, (![0, 0] : Fin 2 → Nat) a + S64x5.size a ≤ S64x5.size a
  h_S64x5 : 0 < S64x5.numel
  transposes_S64x5_p1_0_S5x64 : S64x5.Transposes [1, 0] S5x64
  inb_S20000x64_S20000x64_0_0 : ∀ a, (![0, 0] : Fin 2 → Nat) a + S20000x64.size a ≤ S20000x64.size a
  h_S20000x64 : 0 < S20000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S20000x64_S20000x64 : S20000x64.ShapeCasts S20000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  shapeCasts_S128_S128x1 : S128.ShapeCasts S128x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x64 : S128x1.Broadcasts S128x64
  broadcasts_S1x64_S128x64 : S1x64.Broadcasts S128x64
  reduces_S128x64_S128 : S128x64.Reduces [1] S128
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S20000x5_S5x64_S20000x64_1_0_0_1_n_n_wf : DotDims.WF S20000x5 S5x64 S20000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S20000x64_S64x64_S20000x64_1_0_0_1_n_n_wf : DotDims.WF S20000x64 S64x64 S20000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x64_S128x64_1_0_0_1_n_n_wf : DotDims.WF S128x64 S64x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x5.size a ≤ S100000x5.size a
  hwx0_0 : ∀ i : grid0.Coords, EltTy.bits .f32 = 32 ∨ (Rect.block (s := S100000x5) S20000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x5.size a ≤ S64x5.size a
  hwx0_1 : ∀ i : grid0.Coords, EltTy.bits .f32 = 32 ∨ (Rect.block (s := S64x5) S64x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S100000x64.size a
  hwx0_2 : ∀ i : grid0.Coords, EltTy.bits .f32 = 32 ∨ (Rect.block (s := S100000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S100000x64.size a
  hwx1_2 : ∀ i : grid1.Coords, EltTy.bits .f32 = 32 ∨ (Rect.block (s := S100000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S100000x64.size a
  hwx2_0 : ∀ i : grid2.Coords, EltTy.bits .f32 = 32 ∨ (Rect.block (s := S100000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x64.size a ≤ S100000x64.size a
  hwx2_2 : ∀ i : grid2.Coords, EltTy.bits .f32 = 32 ∨ (Rect.block (s := S100000x64) S20000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S100000x64.size a
  hwx3_0 : ∀ i : grid3.Coords, EltTy.bits .f32 = 32 ∨ (Rect.block (s := S100000x64) S20000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x64.size a ≤ S100000x64.size a
  hwx3_2 : ∀ i : grid3.Coords, EltTy.bits .f32 = 32 ∨ (Rect.block (s := S100000x64) S20000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x64.size a ≤ S128x64.size a
  hwx4_0 : ∀ i : grid4.Coords, EltTy.bits .f32 = 32 ∨ (Rect.block (s := S128x64) S128x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x64.size a ≤ S128x64.size a
  hwx4_6 : ∀ i : grid4.Coords, EltTy.bits .f32 = 32 ∨ (Rect.block (s := S128x64) S128x64.size (cc4_transform_6 i) (hinb4_6 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S20000x5_S5x64_S20000x64_1_0_0_1_n_n : DotDims S20000x5 S5x64 S20000x64 where
  lhsContracting := [1]
  rhsContracting := [0]
  lhsNonContracting := [0]
  rhsNonContracting := [1]
  lhsBatch := []
  rhsBatch := []
  wf := dot_S20000x5_S5x64_S20000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf

abbrev win0_0 : Pipeline.Window sig grid0 :=
  Pipeline.Window.ofSpec (Memref.whole main_v0) S20000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S20000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S20000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S128x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v72) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg7) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v74) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S128x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x6 : Shape := ⟨2, ![100000, 6]⟩
abbrev S64x5 : Shape := ⟨2, ![64, 5]⟩
abbrev S64 : Shape := ⟨1, ![64]⟩
abbrev S64x64 : Shape := ⟨2, ![64, 64]⟩
abbrev S2x3200000 : Shape := ⟨2, ![2, 3200000]⟩
abbrev S100000 : Shape := ⟨1, ![100000]⟩
abbrev S100000x5 : Shape := ⟨2, ![100000, 5]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S5x64 : Shape := ⟨2, ![5, 64]⟩
abbrev S100000x64 : Shape := ⟨2, ![100000, 64]⟩
abbrev S3300000x64 : Shape := ⟨2, ![3300000, 64]⟩
abbrev S1x64 : Shape := ⟨2, ![1, 64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩

abbrev nBuf : Space → Nat
  | .hbm => 181
  | .vmem => 0
  | .smem => 0
  | _ => 0

abbrev hbmTy0_0 (i : Nat) : BufTy := match i % 128 with
  | 0 => ⟨S100000x6, .f32⟩
  | 1 => ⟨S64x5, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S2x3200000, .i32⟩
  | 10 => ⟨S100000, .i32⟩
  | 11 => ⟨S100000x5, .f32⟩
  | 12 => ⟨S1x3200000, .i32⟩
  | 13 => ⟨S3200000, .i32⟩
  | 14 => ⟨S1x3200000, .i32⟩
  | 15 => ⟨S3200000, .i32⟩
  | 16 => ⟨S100000, .i32⟩
  | 17 => ⟨S3300000, .i32⟩
  | 18 => ⟨S3300000, .i32⟩
  | 19 => ⟨S_, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000, .f32⟩
  | 54 => ⟨S3300000, .f32⟩
  | 55 => ⟨S5x64, .f32⟩
  | 56 => ⟨S100000x64, .f32⟩
  | 57 => ⟨S_, .i32⟩
  | 58 => ⟨S3300000, .i32⟩
  | 59 => ⟨S3300000, .i1⟩
  | 60 => ⟨S_, .i32⟩
  | 61 => ⟨S3300000, .i32⟩
  | 62 => ⟨S3300000, .i32⟩
  | 63 => ⟨S3300000, .i32⟩
  | 64 => ⟨S3300000x1, .i32⟩
  | 65 => ⟨S3300000x64, .f32⟩
  | 66 => ⟨S3300000x1, .f32⟩
  | 67 => ⟨S3300000x64, .f32⟩
  | 68 => ⟨S3300000x64, .f32⟩
  | 69 => ⟨S_, .f32⟩
  | 70 => ⟨S100000x64, .f32⟩
  | 71 => ⟨S3300000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000, .i32⟩
  | 80 => ⟨S3300000, .i32⟩
  | 81 => ⟨S3300000, .i32⟩
  | 82 => ⟨S_, .f32⟩
  | 83 => ⟨S3300000, .f32⟩
  | 84 => ⟨S_, .f32⟩
  | 85 => ⟨S100000, .f32⟩
  | 86 => ⟨S3300000x1, .i32⟩
  | 87 => ⟨S100000, .f32⟩
  | 88 => ⟨S_, .f32⟩
  | 89 => ⟨S100000, .f32⟩
  | 90 => ⟨S100000, .i1⟩
  | 91 => ⟨S_, .f32⟩
  | 92 => ⟨S100000, .f32⟩
  | 93 => ⟨S100000, .f32⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000, .f32⟩
  | 117 => ⟨S3300000, .f32⟩
  | 118 => ⟨S64x64, .f32⟩
  | 119 => ⟨S100000x64, .f32⟩
  | 120 => ⟨S_, .i32⟩
  | 121 => ⟨S3300000, .i32⟩
  | 122 => ⟨S3300000, .i1⟩
  | 123 => ⟨S_, .i32⟩
  | 124 => ⟨S3300000, .i32⟩
  | 125 => ⟨S3300000, .i32⟩
  | 126 => ⟨S3300000, .i32⟩
  | 127 => ⟨S3300000x1, .i32⟩
  | _ => ⟨S100000x6, .f32⟩

abbrev hbmTy0_1 (i : Nat) : BufTy := match i % 128 with
  | 0 => ⟨S3300000x64, .f32⟩
  | 1 => ⟨S3300000x1, .f32⟩
  | 2 => ⟨S3300000x64, .f32⟩
  | 3 => ⟨S3300000x64, .f32⟩
  | 4 => ⟨S_, .f32⟩
  | 5 => ⟨S100000x64, .f32⟩
  | 6 => ⟨S3300000x1, .i32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S_, .f32⟩
  | 15 => ⟨S128x64, .f32⟩
  | 16 => ⟨S100000x1, .i32⟩
  | 17 => ⟨S128x64, .f32⟩
  | 18 => ⟨S_, .f32⟩
  | 19 => ⟨S100000, .f32⟩
  | 20 => ⟨S_, .f32⟩
  | 21 => ⟨S128, .f32⟩
  | 22 => ⟨S100000x1, .i32⟩
  | 23 => ⟨S128, .f32⟩
  | 24 => ⟨S_, .f32⟩
  | 25 => ⟨S128, .f32⟩
  | 26 => ⟨S128, .f32⟩
  | 27 => ⟨S128x1, .f32⟩
  | 28 => ⟨S128x64, .f32⟩
  | 29 => ⟨S128x64, .f32⟩
  | 30 => ⟨S64x64, .f32⟩
  | 31 => ⟨S128x64, .f32⟩
  | 32 => ⟨S1x64, .f32⟩
  | 33 => ⟨S128x64, .f32⟩
  | 34 => ⟨S128x64, .f32⟩
  | 35 => ⟨S_, .f32⟩
  | 36 => ⟨S128x64, .f32⟩
  | 37 => ⟨S128x64, .f32⟩
  | 38 => ⟨S64x64, .f32⟩
  | 39 => ⟨S128x64, .f32⟩
  | 40 => ⟨S1x64, .f32⟩
  | 41 => ⟨S128x64, .f32⟩
  | 42 => ⟨S128x64, .f32⟩
  | 43 => ⟨S128x64, .f32⟩
  | 44 => ⟨S_, .f32⟩
  | 45 => ⟨S128, .f32⟩
  | 46 => ⟨S128x1, .f32⟩
  | 47 => ⟨S128x1, .f32⟩
  | 48 => ⟨S_, .f32⟩
  | 49 => ⟨S128x1, .f32⟩
  | 50 => ⟨S128x1, .f32⟩
  | 51 => ⟨S128x64, .f32⟩
  | 52 => ⟨S128x64, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_14 : Ref sig .tc := ⟨.hbm, 95, rfl⟩
abbrev main_call2_v0 : Ref sig .tc := ⟨.hbm, 96, rfl⟩
abbrev main_call2_v1 : Ref sig .tc := ⟨.hbm, 97, rfl⟩
abbrev main_v64 : Ref sig .tc := ⟨.hbm, 98, rfl⟩
abbrev main_c_15 : Ref sig .tc := ⟨.hbm, 99, rfl⟩
abbrev main_v65 : Ref sig .tc := ⟨.hbm, 100, rfl⟩
abbrev main_v66 : Ref sig .tc := ⟨.hbm, 101, rfl⟩
abbrev main_c_16 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_17 : Ref sig .tc := ⟨.hbm, 108, rfl⟩
abbrev main_v72 : Ref sig .tc := ⟨.hbm, 109, rfl⟩
abbrev main_v73 : Ref sig .tc := ⟨.hbm, 110, rfl⟩
abbrev main_c_18 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_19 : Ref sig .tc := ⟨.hbm, 120, rfl⟩
abbrev main_v82 : Ref sig .tc := ⟨.hbm, 121, rfl⟩
abbrev main_v83 : Ref sig .tc := ⟨.hbm, 122, rfl⟩
abbrev main_c_20 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_21 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_call3_cst : Ref sig .tc := ⟨.hbm, 139, rfl⟩
abbrev main_call3_v0 : Ref sig .tc := ⟨.hbm, 140, rfl⟩
abbrev main_v98 : Ref sig .tc := ⟨.hbm, 141, rfl⟩
abbrev main_cst_22 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_23 : Ref sig .tc := ⟨.hbm, 146, rfl⟩
abbrev main_v102 : Ref sig .tc := ⟨.hbm, 147, rfl⟩
abbrev main_cst_24 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_25 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_call4_cst : Ref sig .tc := ⟨.hbm, 163, rfl⟩
abbrev main_call4_v0 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_call5_v0 : Ref sig .tc := ⟨.hbm, 171, rfl⟩
abbrev main_call5_cst : Ref sig .tc := ⟨.hbm, 172, rfl⟩
abbrev main_call5_v1 : Ref sig .tc := ⟨.hbm, 173, rfl⟩
abbrev main_call5_v2 : Ref sig .tc := ⟨.hbm, 174, rfl⟩
abbrev main_v122 : Ref sig .tc := ⟨.hbm, 175, rfl⟩
abbrev main_cst_26 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩

abbrev nD : Nat := 1
abbrev τ : Topo := Topo.v7x

variable {F : FTy → Type} [FloatOps F]

class Facts₀ : Prop where
  slices_S100000x6_S100000x5_0_1 : S100000x6.Slices ![0, 1] S100000x5
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S64x5_S5x64_1_0 : S64x5.Transposes [1, 0] S5x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x64_S64x64_1_0 : S64x64.Transposes [1, 0] S64x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S1x64_S128x64_0_1 : S1x64.BroadcastsInDim S128x64 (![0, 1] : Fin 2 → Fin S128x64.rank)
  reducesTo_S128x64_S128_d1 : S128x64.ReducesTo [1] S128
  h_S_ : 0 < S_.numel
  bcast_S_S128x1 : S_.BroadcastsInDim S128x1 (![] : Fin 0 → Fin S128x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x5_S5x64_S100000x64_1_0_0_1_n_n_wf : DotDims.WF S100000x5 S5x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x64_S128x64_1_0_0_1_n_n_wf : DotDims.WF S128x64 S64x64 S128x64 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf

class Facts : Prop extends Facts₀ where

variable [Facts]
-- ==== Proof.KernelRun.lean ====
/-
  The idealized kernel's run with its result array named.  Every weakly fair execution of @main terminates,
  nothing faulting; the eleven argument arrays end as launched, and the result array ends holding what the last
  of the five pipelines leaves in it: the contents of the last boundary of the fold through @main's segments
  (host stretches applied to the memory, each pipeline's arrays replaced by what its write-backs leave).
-/
import proofs.«177845_j65317862637644_1_alg».proof.Proof.Gen.KernelIdeal.Frame

set_option maxRecDepth 16384

noncomputable section

namespace Cert.KernelIdeal.Res

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: the result array at the last boundary's contents, the arguments as launched. -/
theorem run : θ_run defs (onTc (τ := τ) (main (F := F))) ⟨m, fun _ => 0, ρ⟩ (fun r => ∀ c : Dev nD,
      r.2.mem ((c.tc : Thread nD τ).loc main_v75) = W11 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v75 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Res

end
-- ==== Proof.HostSpec.lean ====
/-
  The host side that both programs share, named once.  A graph-convolution layer propagates node rows along the edges:
  gather each edge's source row, scale it by the edge's weight, and add it into the edge's target row (`propagate`; the
  source indices wrapped as jnp wraps negative ones).  Pooling adds node rows, and ones, into their graph's row
  (`poolSum`, `poolCnt`).  The reference's stages are these functions of its earlier stages, by unfolding.
-/
import proofs.«177845_j65317862637644_1_alg».proof.Proof.RefRead

noncomputable section

namespace Cert.GCN

open Idealize.ShloMosaic Cert.ReferenceIdeal Cert.ReferenceIdeal.Gen

variable {F : FTy → Type} [FloatOps F]

/-- Rows of `h` gathered at the edges' sources, scaled by the edges' weights, and summed into the edges' targets. -/
def propagate (h : (⟨S100000x64, .f32⟩ : BufTy).Contents (Elt F)) (src dst : (⟨S3300000, .i32⟩ : BufTy).Contents (Elt F)) (nrm : (⟨S3300000, .f32⟩ : BufTy).Contents (Elt F)) :
    (⟨S100000x64, .f32⟩ : BufTy).Contents (Elt F) :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 dst)
    (mulf (Host.gather gather_S100000x64_S3300000x1_S3300000x64_1_0_n_n_0_1_164 h
        (broadcastInDim S3300000x1 ![0] bcast_S3300000_S3300000x1_0
          (select (cmpi .slt src (broadcastInDim S3300000 ![] bcast_S_S3300000 (constantI S_ 32 0#32)))
            (addi src (broadcastInDim S3300000 ![] bcast_S_S3300000 (constantI S_ 32 100000#32))) src)))
      (broadcastInDim S3300000x64 ![0, 1] bcast_S3300000x1_S3300000x64_0_1
        (broadcastInDim S3300000x1 ![0] bcast_S3300000_S3300000x1_0 nrm)))

/-- Node rows summed into their graph's row. -/
def poolSum (h : (⟨S100000x64, .f32⟩ : BufTy).Contents (Elt F)) (batch : (⟨S100000, .i32⟩ : BufTy).Contents (Elt F)) : (⟨S128x64, .f32⟩ : BufTy).Contents (Elt F) :=
  Host.scatterAdd scatter_S128x64_S100000x1_S100000x64_1_0_0_1
    (broadcastInDim S128x64 ![] bcast_S_S128x64 (constant S_ .f32 0x00000000#32))
    (broadcastInDim S100000x1 ![0] bcast_S100000_S100000x1_0 batch) h

/-- The number of nodes of each graph, as a float. -/
def poolCnt (batch : (⟨S100000, .i32⟩ : BufTy).Contents (Elt F)) : (⟨S128, .f32⟩ : BufTy).Contents (Elt F) :=
  Host.scatterAdd scatter_S128_S100000x1_S100000_n_0_0_1
    (broadcastInDim S128 ![] bcast_S_S128 (constant S_ .f32 0x00000000#32))
    (broadcastInDim S100000x1 ![0] bcast_S100000_S100000x1_0 batch)
    (broadcastInDim S100000 ![] bcast_S_S100000 (constant S_ .f32 0x3F800000#32))

namespace Ref

open Cert.ReferenceIdeal.Read

/-- The first layer's aggregation is `propagate` of the first projection. -/
theorem agg1 (x0 : (⟨S100000x6, .f32⟩ : BufTy).Contents (Elt F)) (x1 : (⟨S64x5, .f32⟩ : BufTy).Contents (Elt F)) (x9 : (⟨S2x3200000, .i32⟩ : BufTy).Contents (Elt F)) :
    val_main_v47 (F := F) x0 x1 x9
      = propagate (val_main_v34 (F := F) x0 x1) (val_main_v6 (F := F) x9) (val_main_v7 (F := F) x9) (val_main_v32 (F := F) x9) := rfl

/-- The second layer's aggregation is `propagate` of the second projection, along the same edges with the same weights
    (the reference builds the edge lists and weights a second time, from the same operations). -/
theorem agg2 (x0 : (⟨S100000x6, .f32⟩ : BufTy).Contents (Elt F)) (x1 : (⟨S64x5, .f32⟩ : BufTy).Contents (Elt F)) (x2 : (⟨S64, .f32⟩ : BufTy).Contents (Elt F)) (x3 : (⟨S64x64, .f32⟩ : BufTy).Contents (Elt F))
    (x9 : (⟨S2x3200000, .i32⟩ : BufTy).Contents (Elt F)) :
    val_main_v94 (F := F) x0 x1 x2 x3 x9
      = propagate (val_main_v81 (F := F) x0 x1 x2 x3 x9) (val_main_v6 (F := F) x9) (val_main_v7 (F := F) x9) (val_main_v32 (F := F) x9) := rfl

/-- The per-graph sums of the second layer's rows. -/
theorem sums (x0 : (⟨S100000x6, .f32⟩ : BufTy).Contents (Elt F)) (x1 : (⟨S64x5, .f32⟩ : BufTy).Contents (Elt F)) (x2 : (⟨S64, .f32⟩ : BufTy).Contents (Elt F)) (x3 : (⟨S64x64, .f32⟩ : BufTy).Contents (Elt F))
    (x4 : (⟨S64, .f32⟩ : BufTy).Contents (Elt F)) (x9 : (⟨S2x3200000, .i32⟩ : BufTy).Contents (Elt F)) (x10 : (⟨S100000, .i32⟩ : BufTy).Contents (Elt F)) :
    val_main_v101 (F := F) x0 x1 x2 x3 x4 x9 x10 = poolSum (val_main_v98 (F := F) x0 x1 x2 x3 x4 x9) x10 := rfl

/-- The per-graph counts. -/
theorem cnt (x10 : (⟨S100000, .i32⟩ : BufTy).Contents (Elt F)) : val_main_v105 (F := F) x10 = poolCnt x10 := rfl

end Ref

end Cert.GCN

end
-- ==== Proof.HostKernel.lean ====
/-
  The kernel program's host stretches, read from an arbitrary state `W` of the buffers.  Before the first pipeline
  @main slices the features, builds the edge lists with their self loops and the edge weights — the reference's own first
  stages of the same arguments —; between the pipelines it propagates along the edges and reshapes a bias to a row; before
  the last it pools and reshapes.  No stretch writes an argument array, nor the edge lists and weights once built.
-/
import proofs.«177845_j65317862637644_1_alg».proof.Proof.Gen.KernelIdeal.Launch
import proofs.«177845_j65317862637644_1_alg».proof.Proof.HostSpec
import Idealize.ShloMosaic.Lib.StableHlo.Run

set_option maxRecDepth 16384

noncomputable section

namespace Cert.KernelIdeal.Hst

open Cert.KernelIdeal Cert.KernelIdeal.Gen Cert.GCN
open Idealize.ShloMosaic Idealize.ShloMosaic.TcCoe Idealize.ShloMosaic.StableHlo Idealize.SL.Sem

variable {F : FTy → Type} [FloatOps F] (W : Valuation τ sig (Elt F))

/-! ## Before the first pipeline -/

set_option maxHeartbeats 4000000 in
theorem pre_v0 : StableHlo.after hostOps0_2 (StableHlo.after hostOps0_1 (StableHlo.after hostOps0 W)) (Proc.devRef .tc main_v0)
    = Cert.ReferenceIdeal.Read.val_main_v0 (F := F) (W (Proc.devRef .tc main_arg0)) := by
  dsimp only [hostOps0, hostOps0_1, hostOps0_2]
  after_results_simp <;> rfl

set_option maxHeartbeats 4000000 in
theorem pre_v6 : StableHlo.after hostOps0_2 (StableHlo.after hostOps0_1 (StableHlo.after hostOps0 W)) (Proc.devRef .tc main_v6)
    = Cert.ReferenceIdeal.Read.val_main_v6 (F := F) (W (Proc.devRef .tc main_arg9)) := by
  dsimp only [hostOps0, hostOps0_1, hostOps0_2]
  after_results_simp <;> rfl

set_option maxHeartbeats 4000000 in
theorem pre_v7 : StableHlo.after hostOps0_2 (StableHlo.after hostOps0_1 (StableHlo.after hostOps0 W)) (Proc.devRef .tc main_v7)
    = Cert.ReferenceIdeal.Read.val_main_v7 (F := F) (W (Proc.devRef .tc main_arg9)) := by
  dsimp only [hostOps0, hostOps0_1, hostOps0_2]
  after_results_simp <;> rfl

set_option maxHeartbeats 4000000 in
theorem pre_v32 : StableHlo.after hostOps0_2 (StableHlo.after hostOps0_1 (StableHlo.after hostOps0 W)) (Proc.devRef .tc main_v32)
    = Cert.ReferenceIdeal.Read.val_main_v32 (F := F) (W (Proc.devRef .tc main_arg9)) := by
  dsimp only [hostOps0, hostOps0_1, hostOps0_2]
  after_results_simp <;> rfl

theorem pre_arg1 : StableHlo.after hostOps0_2 (StableHlo.after hostOps0_1 (StableHlo.after hostOps0 W)) (Proc.devRef .tc main_arg1) = W (Proc.devRef .tc main_arg1) := by
  dsimp only [hostOps0, hostOps0_1, hostOps0_2]
  after_results_simp <;> rfl

theorem pre_arg2 : StableHlo.after hostOps0_2 (StableHlo.after hostOps0_1 (StableHlo.after hostOps0 W)) (Proc.devRef .tc main_arg2) = W (Proc.devRef .tc main_arg2) := by
  dsimp only [hostOps0, hostOps0_1, hostOps0_2]
  after_results_simp <;> rfl

theorem pre_arg3 : StableHlo.after hostOps0_2 (StableHlo.after hostOps0_1 (StableHlo.after hostOps0 W)) (Proc.devRef .tc main_arg3) = W (Proc.devRef .tc main_arg3) := by
  dsimp only [hostOps0, hostOps0_1, hostOps0_2]
  after_results_simp <;> rfl

theorem pre_arg4 : StableHlo.after hostOps0_2 (StableHlo.after hostOps0_1 (StableHlo.after hostOps0 W)) (Proc.devRef .tc main_arg4) = W (Proc.devRef .tc main_arg4) := by
  dsimp only [hostOps0, hostOps0_1, hostOps0_2]
  after_results_simp <;> rfl

theorem pre_arg5 : StableHlo.after hostOps0_2 (StableHlo.after hostOps0_1 (StableHlo.after hostOps0 W)) (Proc.devRef .tc main_arg5) = W (Proc.devRef .tc main_arg5) := by
  dsimp only [hostOps0, hostOps0_1, hostOps0_2]
  after_results_simp <;> rfl

theorem pre_arg6 : StableHlo.after hostOps0_2 (StableHlo.after hostOps0_1 (StableHlo.after hostOps0 W)) (Proc.devRef .tc main_arg6) = W (Proc.devRef .tc main_arg6) := by
  dsimp only [hostOps0, hostOps0_1, hostOps0_2]
  after_results_simp <;> rfl

theorem pre_arg7 : StableHlo.after hostOps0_2 (StableHlo.after hostOps0_1 (StableHlo.after hostOps0 W)) (Proc.devRef .tc main_arg7) = W (Proc.devRef .tc main_arg7) := by
  dsimp only [hostOps0, hostOps0_1, hostOps0_2]
  after_results_simp <;> rfl

theorem pre_arg8 : StableHlo.after hostOps0_2 (StableHlo.after hostOps0_1 (StableHlo.after hostOps0 W)) (Proc.devRef .tc main_arg8) = W (Proc.devRef .tc main_arg8) := by
  dsimp only [hostOps0, hostOps0_1, hostOps0_2]
  after_results_simp <;> rfl

theorem pre_arg10 : StableHlo.after hostOps0_2 (StableHlo.after hostOps0_1 (StableHlo.after hostOps0 W)) (Proc.devRef .tc main_arg10) = W (Proc.devRef .tc main_arg10) := by
  dsimp only [hostOps0, hostOps0_1, hostOps0_2]
  after_results_simp <;> rfl

/-! ## Between the first and the second pipeline -/

set_option maxHeartbeats 4000000 in
theorem h1_v46 : StableHlo.after hostOps1 W (Proc.devRef .tc main_v46)
    = propagate (F := F) (W (Proc.devRef .tc main_v33)) (W (Proc.devRef .tc main_v6)) (W (Proc.devRef .tc main_v7)) (W (Proc.devRef .tc main_v32)) := by
  dsimp only [hostOps1]
  after_results_simp <;> rfl

theorem h1_v47 : StableHlo.after hostOps1 W (Proc.devRef .tc main_v47)
    = (shapeCast S1x64 (W (Proc.devRef .tc main_arg2) : (⟨S64, .f32⟩ : BufTy).Contents (Elt F)) shapeCasts_S64_S1x64 : (⟨S1x64, .f32⟩ : BufTy).Contents (Elt F)) := by
  dsimp only [hostOps1]
  after_results_simp <;> rfl

theorem h1_arg3 : StableHlo.after hostOps1 W (Proc.devRef .tc main_arg3) = W (Proc.devRef .tc main_arg3) := by
  dsimp only [hostOps1]
  after_results_simp <;> rfl

theorem h1_arg4 : StableHlo.after hostOps1 W (Proc.devRef .tc main_arg4) = W (Proc.devRef .tc main_arg4) := by
  dsimp only [hostOps1]
  after_results_simp <;> rfl

theorem h1_arg5 : StableHlo.after hostOps1 W (Proc.devRef .tc main_arg5) = W (Proc.devRef .tc main_arg5) := by
  dsimp only [hostOps1]
  after_results_simp <;> rfl

theorem h1_arg6 : StableHlo.after hostOps1 W (Proc.devRef .tc main_arg6) = W (Proc.devRef .tc main_arg6) := by
  dsimp only [hostOps1]
  after_results_simp <;> rfl

theorem h1_arg7 : StableHlo.after hostOps1 W (Proc.devRef .tc main_arg7) = W (Proc.devRef .tc main_arg7) := by
  dsimp only [hostOps1]
  after_results_simp <;> rfl

theorem h1_arg8 : StableHlo.after hostOps1 W (Proc.devRef .tc main_arg8) = W (Proc.devRef .tc main_arg8) := by
  dsimp only [hostOps1]
  after_results_simp <;> rfl

theorem h1_arg10 : StableHlo.after hostOps1 W (Proc.devRef .tc main_arg10) = W (Proc.devRef .tc main_arg10) := by
  dsimp only [hostOps1]
  after_results_simp <;> rfl

theorem h1_v6 : StableHlo.after hostOps1 W (Proc.devRef .tc main_v6) = W (Proc.devRef .tc main_v6) := by
  dsimp only [hostOps1]
  after_results_simp <;> rfl

theorem h1_v7 : StableHlo.after hostOps1 W (Proc.devRef .tc main_v7) = W (Proc.devRef .tc main_v7) := by
  dsimp only [hostOps1]
  after_results_simp <;> rfl

theorem h1_v32 : StableHlo.after hostOps1 W (Proc.devRef .tc main_v32) = W (Proc.devRef .tc main_v32) := by
  dsimp only [hostOps1]
  after_results_simp <;> rfl

/-! ## Between the third and the fourth pipeline -/

set_option maxHeartbeats 4000000 in
theorem h3_v62 : StableHlo.after hostOps3 W (Proc.devRef .tc main_v62)
    = propagate (F := F) (W (Proc.devRef .tc main_v49)) (W (Proc.devRef .tc main_v6)) (W (Proc.devRef .tc main_v7)) (W (Proc.devRef .tc main_v32)) := by
  dsimp only [hostOps3]
  after_results_simp <;> rfl

theorem h3_v63 : StableHlo.after hostOps3 W (Proc.devRef .tc main_v63)
    = (shapeCast S1x64 (W (Proc.devRef .tc main_arg4) : (⟨S64, .f32⟩ : BufTy).Contents (Elt F)) shapeCasts_S64_S1x64 : (⟨S1x64, .f32⟩ : BufTy).Contents (Elt F)) := by
  dsimp only [hostOps3]
  after_results_simp <;> rfl

theorem h3_arg5 : StableHlo.after hostOps3 W (Proc.devRef .tc main_arg5) = W (Proc.devRef .tc main_arg5) := by
  dsimp only [hostOps3]
  after_results_simp <;> rfl

theorem h3_arg6 : StableHlo.after hostOps3 W (Proc.devRef .tc main_arg6) = W (Proc.devRef .tc main_arg6) := by
  dsimp only [hostOps3]
  after_results_simp <;> rfl

theorem h3_arg7 : StableHlo.after hostOps3 W (Proc.devRef .tc main_arg7) = W (Proc.devRef .tc main_arg7) := by
  dsimp only [hostOps3]
  after_results_simp <;> rfl

theorem h3_arg8 : StableHlo.after hostOps3 W (Proc.devRef .tc main_arg8) = W (Proc.devRef .tc main_arg8) := by
  dsimp only [hostOps3]
  after_results_simp <;> rfl

theorem h3_arg10 : StableHlo.after hostOps3 W (Proc.devRef .tc main_arg10) = W (Proc.devRef .tc main_arg10) := by
  dsimp only [hostOps3]
  after_results_simp <;> rfl

/-! ## Before the last pipeline -/

theorem h4_v67 : StableHlo.after hostOps4 W (Proc.devRef .tc main_v67)
    = poolSum (F := F) (W (Proc.devRef .tc main_v64)) (W (Proc.devRef .tc main_arg10)) := by
  dsimp only [hostOps4]
  after_results_simp <;> rfl

theorem h4_v72 : StableHlo.after hostOps4 W (Proc.devRef .tc main_v72)
    = (shapeCast S128x1 (poolCnt (F := F) (W (Proc.devRef .tc main_arg10)) : (⟨S128, .f32⟩ : BufTy).Contents (Elt F)) shapeCasts_S128_S128x1 : (⟨S128x1, .f32⟩ : BufTy).Contents (Elt F)) := by
  dsimp only [hostOps4]
  after_results_simp <;> rfl

theorem h4_v73 : StableHlo.after hostOps4 W (Proc.devRef .tc main_v73)
    = (shapeCast S1x64 (W (Proc.devRef .tc main_arg6) : (⟨S64, .f32⟩ : BufTy).Contents (Elt F)) shapeCasts_S64_S1x64 : (⟨S1x64, .f32⟩ : BufTy).Contents (Elt F)) := by
  dsimp only [hostOps4]
  after_results_simp <;> rfl

theorem h4_v74 : StableHlo.after hostOps4 W (Proc.devRef .tc main_v74)
    = (shapeCast S1x64 (W (Proc.devRef .tc main_arg8) : (⟨S64, .f32⟩ : BufTy).Contents (Elt F)) shapeCasts_S64_S1x64 : (⟨S1x64, .f32⟩ : BufTy).Contents (Elt F)) := by
  dsimp only [hostOps4]
  after_results_simp <;> rfl

theorem h4_arg5 : StableHlo.after hostOps4 W (Proc.devRef .tc main_arg5) = W (Proc.devRef .tc main_arg5) := by
  dsimp only [hostOps4]
  after_results_simp <;> rfl

theorem h4_arg7 : StableHlo.after hostOps4 W (Proc.devRef .tc main_arg7) = W (Proc.devRef .tc main_arg7) := by
  dsimp only [hostOps4]
  after_results_simp <;> rfl

end Cert.KernelIdeal.Hst

end
-- ==== Proof.Linear.lean ====
/-
  The one non-pointwise law of this certificate: a matrix product with a transposed weight,
  x · wᵀ, read at an index.  Entry (p, q) is the sum over the shared axis j of x (p, j) · w (q, j).
  The kernel computes it block of rows by block of rows as a `tpu.matmul` of the block with the transposed
  weight into a zero accumulator (the roundings to bf16 on the way in are the identity on extended reals);
  the reference as one `dot_general` of the whole array with the transposed weight.  Both read as `linear`.
-/
import proofs.«177845_j65317862637644_1_alg».proof.KernelIdeal
import proofs.«177845_j65317862637644_1_alg».proof.ReferenceIdeal
import Idealize.ShloMosaic.PureOps.Ideal
import Idealize.ShloMosaic.PureOps.Ideal.Laws
import Idealize.ShloMosaic.Lib.ValueIdx
import Idealize.ShloMosaic.Lib.Pipeline.Value

noncomputable section

namespace Cert.GCN

open Idealize.ShloMosaic Idealize.ShloMosaic.ValueIdx

/-- x · wᵀ: entry (p, q) is row `p` of `x` against row `q` of `w`. -/
def linear {n k o : Nat} (x : (⟨2, ![n, k]⟩ : Shape).Idx → EReal) (w : (⟨2, ![o, k]⟩ : Shape).Idx → EReal) :
    (⟨2, ![n, o]⟩ : Shape).Idx → EReal :=
  fun i => ∑ j : Fin k, x (ix2 (i 0) j) * w (ix2 (i 1) j)

theorem linear_apply {n k o : Nat} (x : (⟨2, ![n, k]⟩ : Shape).Idx → EReal) (w : (⟨2, ![o, k]⟩ : Shape).Idx → EReal)
    (p : Fin n) (q : Fin o) : linear x w (ix2 p q) = ∑ j : Fin k, x (ix2 p j) * w (ix2 q j) := rfl

/-- A contraction of an [a, k] array with a [k, b] array over their one shared axis, re-indexed by that axis's
    coordinate: the operand indices at output (p, q) and contraction coordinate j are (p, j) and (j, q). -/
theorem dot_sum {a k b : Nat} (D : DotDims ⟨2, ![a, k]⟩ ⟨2, ![k, b]⟩ ⟨2, ![a, b]⟩) (hr : D.contr.rank = 1)
    (hs : D.contr.size ⟨0, by omega⟩ = k)
    (hl0 : ∀ i κ, (D.lhsIdx i κ 0).val = (i 0).val) (hl1 : ∀ i κ, (D.lhsIdx i κ 1).val = (κ ⟨0, by omega⟩).val)
    (hr0 : ∀ i κ, (D.rhsIdx i κ 0).val = (κ ⟨0, by omega⟩).val) (hr1 : ∀ i κ, (D.rhsIdx i κ 1).val = (i 1).val)
    (l : (⟨2, ![a, k]⟩ : Shape).Idx → EReal) (r : (⟨2, ![k, b]⟩ : Shape).Idx → EReal) (i : (⟨2, ![a, b]⟩ : Shape).Idx) :
    ∑ κ : D.contr.Idx, l (D.lhsIdx i κ) * r (D.rhsIdx i κ) = ∑ j : Fin k, l (ix2 (i 0) j) * r (ix2 j (i 1)) := by
  rw [← Equiv.sum_comp (contrEquiv1 D k hr hs).symm]
  refine Finset.sum_congr rfl fun j _ => ?_
  have hk := contrEquiv1_symm_val D k hr hs j
  have el : D.lhsIdx i ((contrEquiv1 D k hr hs).symm j) = ix2 (i 0) j := funext fun c => Fin.ext (by
    match c with
    | ⟨0, _⟩ => exact hl0 _ _
    | ⟨1, _⟩ => exact (hl1 _ _).trans hk)
  have er : D.rhsIdx i ((contrEquiv1 D k hr hs).symm j) = ix2 j (i 1) := funext fun c => Fin.ext (by
    match c with
    | ⟨0, _⟩ => exact (hr0 _ _).trans hk
    | ⟨1, _⟩ => exact hr1 _ _)
  exact congrArg₂ (· * ·) (congrArg l el) (congrArg r er)

/-- The transposed weight read at (j, q) is the weight at (q, j). -/
theorem transpose_w {o k : Nat} (w : (⟨2, ![o, k]⟩ : Shape).Idx → EReal)
    (h : (⟨2, ![o, k]⟩ : Shape).Transposes [1, 0] ⟨2, ![k, o]⟩) (j : Fin k) (q : Fin o) :
    transpose ⟨2, ![k, o]⟩ [1, 0] w h (ix2 j q) = w (ix2 q j) :=
  transpose_apply [1, 0] w h (ix2 j q) (ix2 q j) (fun b => match b with
    | ⟨0, _⟩ => rfl
    | ⟨1, _⟩ => rfl)

end Cert.GCN

end
-- ==== Proof.LinearRef.lean ====
/-
  The reference's three matrix products, each one `dot_general` of an array with a transposed weight over the one shared
  axis: read at an index they are x · wᵀ (`linear`).
-/
import proofs.«177845_j65317862637644_1_alg».proof.Proof.Linear
import proofs.«177845_j65317862637644_1_alg».proof.Proof.Gen.ReferenceIdeal

noncomputable section

namespace Cert.GCN.Ref

open Idealize.ShloMosaic Idealize.ShloMosaic.ValueIdx Cert.GCN Cert.ReferenceIdeal

/-- The first layer's projection of the 100000 node feature rows by the [64, 5] weight. -/
theorem dot_feat (x : FVec Ideal S100000x5 .f32) (w : FVec Ideal S64x5 .f32)
    (ht : S64x5.Transposes [1, 0] S5x64) :
    Host.dotGeneral (F := Ideal) dot_S100000x5_S5x64_S100000x64_1_0_0_1_n_n none x (transpose S5x64 [1, 0] w ht) = linear x w := by
  funext i
  simp only [Host.dotGeneral]
  rw [Ideal.dotGeneral_apply]
  refine (dot_sum (a := 100000) (k := 5) (b := 64) dot_S100000x5_S5x64_S100000x64_1_0_0_1_n_n rfl rfl
    (fun i κ => by
      unfold DotDims.lhsIdx
      rw [dif_neg (show ¬(0 : Fin S100000x5.rank) ∈ dot_S100000x5_S5x64_S100000x64_1_0_0_1_n_n.lhsBatch by decide), dif_pos (show (0 : Fin S100000x5.rank) ∈ dot_S100000x5_S5x64_S100000x64_1_0_0_1_n_n.lhsNonContracting by decide)]
      rfl)
    (fun i κ => dot_S100000x5_S5x64_S100000x64_1_0_0_1_n_n.lhsIdx_val_of_single rfl i κ)
    (fun i κ => dot_S100000x5_S5x64_S100000x64_1_0_0_1_n_n.rhsIdx_val_of_single rfl i κ)
    (fun i κ => by
      unfold DotDims.rhsIdx
      rw [dif_neg (show ¬(1 : Fin S5x64.rank) ∈ dot_S100000x5_S5x64_S100000x64_1_0_0_1_n_n.rhsBatch by decide), dif_pos (show (1 : Fin S5x64.rank) ∈ dot_S100000x5_S5x64_S100000x64_1_0_0_1_n_n.rhsNonContracting by decide)]
      rfl) _ _ i).trans ?_
  exact Finset.sum_congr rfl fun j _ => congrArg (x (ix2 (i 0) j) * ·) (transpose_w w _ j (i 1))

/-- The second layer's projection of the 100000 hidden rows by a [64, 64] weight. -/
theorem dot_hid (x : FVec Ideal S100000x64 .f32) (w : FVec Ideal S64x64 .f32)
    (ht : S64x64.Transposes [1, 0] S64x64) :
    Host.dotGeneral (F := Ideal) dot_S100000x64_S64x64_S100000x64_1_0_0_1_n_n none x (transpose S64x64 [1, 0] w ht) = linear x w := by
  funext i
  simp only [Host.dotGeneral]
  rw [Ideal.dotGeneral_apply]
  refine (dot_sum (a := 100000) (k := 64) (b := 64) dot_S100000x64_S64x64_S100000x64_1_0_0_1_n_n rfl rfl
    (fun i κ => by
      unfold DotDims.lhsIdx
      rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
      rfl)
    (fun i κ => dot_S100000x64_S64x64_S100000x64_1_0_0_1_n_n.lhsIdx_val_of_single rfl i κ)
    (fun i κ => dot_S100000x64_S64x64_S100000x64_1_0_0_1_n_n.rhsIdx_val_of_single rfl i κ)
    (fun i κ => by
      unfold DotDims.rhsIdx
      rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
      rfl) _ _ i).trans ?_
  exact Finset.sum_congr rfl fun j _ => congrArg (x (ix2 (i 0) j) * ·) (transpose_w w _ j (i 1))

/-- A projection of the 128 pooled rows by a [64, 64] weight (both layers of the head). -/
theorem dot_pool (x : FVec Ideal S128x64 .f32) (w : FVec Ideal S64x64 .f32)
    (ht : S64x64.Transposes [1, 0] S64x64) :
    Host.dotGeneral (F := Ideal) dot_S128x64_S64x64_S128x64_1_0_0_1_n_n none x (transpose S64x64 [1, 0] w ht) = linear x w := by
  funext i
  simp only [Host.dotGeneral]
  rw [Ideal.dotGeneral_apply]
  refine (dot_sum (a := 128) (k := 64) (b := 64) dot_S128x64_S64x64_S128x64_1_0_0_1_n_n rfl rfl
    (fun i κ => by
      unfold DotDims.lhsIdx
      rw [dif_neg (show ¬(0 : Fin S128x64.rank) ∈ dot_S128x64_S64x64_S128x64_1_0_0_1_n_n.lhsBatch by decide), dif_pos (show (0 : Fin S128x64.rank) ∈ dot_S128x64_S64x64_S128x64_1_0_0_1_n_n.lhsNonContracting by decide)]
      rfl)
    (fun i κ => dot_S128x64_S64x64_S128x64_1_0_0_1_n_n.lhsIdx_val_of_single rfl i κ)
    (fun i κ => dot_S128x64_S64x64_S128x64_1_0_0_1_n_n.rhsIdx_val_of_single rfl i κ)
    (fun i κ => by
      unfold DotDims.rhsIdx
      rw [dif_neg (show ¬(1 : Fin S64x64.rank) ∈ dot_S128x64_S64x64_S128x64_1_0_0_1_n_n.rhsBatch by decide), dif_pos (show (1 : Fin S64x64.rank) ∈ dot_S128x64_S64x64_S128x64_1_0_0_1_n_n.rhsNonContracting by decide)]
      rfl) _ _ i).trans ?_
  exact Finset.sum_congr rfl fun j _ => congrArg (x (ix2 (i 0) j) * ·) (transpose_w w _ j (i 1))

end Cert.GCN.Ref

end
-- ==== Proof.BiasRelu.lean ====
/-
  A bias row added to every row of an array, then the positive part — the second half of a graph-convolution layer
  and of the head's first layer — and the bias row alone added (the head's second layer).  The kernel broadcasts a
  [1, 64] row inside its body; the reference broadcasts the [64] vector on the host in two steps.  Read at an index
  both are max (x (p, q) + b q) 0, resp. x (p, q) + b q.
-/
import proofs.«177845_j65317862637644_1_alg».proof.Proof.Linear
import proofs.«177845_j65317862637644_1_alg».proof.Proof.Gen.ReferenceIdeal
import proofs.«177845_j65317862637644_1_alg».proof.Proof.Gen.KernelIdeal.Skeleton

noncomputable section

namespace Cert.GCN

open Idealize.ShloMosaic Idealize.ShloMosaic.ValueIdx

/-- Entry (p, q) is x (p, q) + b (0, q). -/
def addRow {n o : Nat} (x : (⟨2, ![n, o]⟩ : Shape).Idx → EReal) (b : (⟨2, ![1, o]⟩ : Shape).Idx → EReal) :
    (⟨2, ![n, o]⟩ : Shape).Idx → EReal :=
  fun i => x i + b (ix2 0 (i 1))

/-- Entry (p, q) is max (x (p, q) + b (0, q)) 0. -/
def biasRelu {n o : Nat} (x : (⟨2, ![n, o]⟩ : Shape).Idx → EReal) (b : (⟨2, ![1, o]⟩ : Shape).Idx → EReal) :
    (⟨2, ![n, o]⟩ : Shape).Idx → EReal :=
  fun i => max (x i + b (ix2 0 (i 1))) (Ideal.ofBits .f32 0x00000000#32)

/-- A [o] vector reshaped to a [1, o] row, read at (0, q), is the vector at q. -/
theorem row_of_vec {o : Nat} (b : (⟨1, ![o]⟩ : Shape).Idx → EReal) (h : (⟨1, ![o]⟩ : Shape).ShapeCasts ⟨2, ![1, o]⟩) (q : Fin o) :
    shapeCast ⟨2, ![1, o]⟩ b h (ix2 0 q) = b (ix1 q) :=
  (shapeCast_addUnit_apply (n := 1) ![o] b h (ix2 0 q)).trans
    (congrArg b (funext fun a => match a with | ⟨0, _⟩ => rfl))

/-- A [1, o] row broadcast down n rows (inside a kernel body), read at (p, q), is the row at (0, q). -/
theorem rows_of_row {n o : Nat} (ho : o ≠ 1) (b : (⟨2, ![1, o]⟩ : Shape).Idx → EReal)
    (h : (⟨2, ![1, o]⟩ : Shape).Broadcasts ⟨2, ![n, o]⟩) (i : (⟨2, ![n, o]⟩ : Shape).Idx) :
    broadcastTo ⟨2, ![n, o]⟩ b h i = b (ix2 0 (i 1)) :=
  broadcastTo_apply b h i (ix2 0 (i 1)) (fun a => match a with
    | ⟨0, _⟩ => by show 0 = if (1 : Nat) = 1 then 0 else _; rw [if_pos rfl]
    | ⟨1, _⟩ => by show (i 1).val = if o = 1 then 0 else (i 1).val; rw [if_neg ho])

/-- A [o] vector broadcast on the host to a [1, o] row and then down n rows, read at (p, q), is the vector at q. -/
theorem rows_of_vec {n o : Nat} (ho : o ≠ 1) (b : (⟨1, ![o]⟩ : Shape).Idx → EReal)
    (h1 : (⟨1, ![o]⟩ : Shape).BroadcastsInDim ⟨2, ![1, o]⟩ ![1])
    (h2 : (⟨2, ![1, o]⟩ : Shape).BroadcastsInDim ⟨2, ![n, o]⟩ ![0, 1]) (i : (⟨2, ![n, o]⟩ : Shape).Idx) :
    broadcastInDim ⟨2, ![n, o]⟩ ![0, 1] h2 (broadcastInDim ⟨2, ![1, o]⟩ ![1] h1 b) i = b (ix1 (i 1)) :=
  (broadcastInDim_apply ![0, 1] h2 _ i (ix2 0 (i 1)) (fun a => match a with
    | ⟨0, _⟩ => by show 0 = if (1 : Nat) = 1 then 0 else (i 0).val; rw [if_pos rfl]
    | ⟨1, _⟩ => by show (i 1).val = if o = 1 then 0 else (i 1).val; rw [if_neg ho])).trans
  (broadcastInDim_apply ![1] h1 b (ix2 0 (i 1)) (ix1 (i 1)) (fun a => match a with
    | ⟨0, _⟩ => by show (i 1).val = if o = 1 then 0 else (i 1).val; rw [if_neg ho]))

/-- A scalar constant broadcast on the host to any shape, read anywhere, is its value. -/
theorem splat_const {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- The reference's bias and positive part: the vector broadcast in two steps, added, and the maximum with a zero
    splat. -/
theorem ref_biasRelu {n o : Nat} (ho : o ≠ 1) (x : (⟨2, ![n, o]⟩ : Shape).Idx → EReal) (b : (⟨1, ![o]⟩ : Shape).Idx → EReal)
    (h1 : (⟨1, ![o]⟩ : Shape).BroadcastsInDim ⟨2, ![1, o]⟩ ![1])
    (h2 : (⟨2, ![1, o]⟩ : Shape).BroadcastsInDim ⟨2, ![n, o]⟩ ![0, 1])
    (h0 : (⟨0, ![]⟩ : Shape).BroadcastsInDim ⟨2, ![n, o]⟩ ![])
    (hc : (⟨1, ![o]⟩ : Shape).ShapeCasts ⟨2, ![1, o]⟩) :
    maximumf (F := Ideal) (φ := .f32) (addf (F := Ideal) (φ := .f32) x (broadcastInDim ⟨2, ![n, o]⟩ ![0, 1] h2 (broadcastInDim ⟨2, ![1, o]⟩ ![1] h1 b)))
      (broadcastInDim ⟨2, ![n, o]⟩ ![] h0 (constant (F := Ideal) ⟨0, ![]⟩ .f32 0x00000000#32))
    = biasRelu x (shapeCast ⟨2, ![1, o]⟩ b hc) := by
  funext i
  show max (x i + broadcastInDim ⟨2, ![n, o]⟩ ![0, 1] h2 (broadcastInDim ⟨2, ![1, o]⟩ ![1] h1 b) i)
      (broadcastInDim ⟨2, ![n, o]⟩ ![] h0 (constant (F := Ideal) ⟨0, ![]⟩ .f32 0x00000000#32) i)
    = max (x i + shapeCast ⟨2, ![1, o]⟩ b hc (ix2 0 (i 1))) (Ideal.ofBits .f32 0x00000000#32)
  rw [rows_of_vec ho b h1 h2 i, splat_const]
  exact (congrArg (fun z => max (x i + z) (Ideal.ofBits .f32 0x00000000#32)) (row_of_vec b hc (i 1))).symm

/-- The reference's bias alone. -/
theorem ref_addRow {n o : Nat} (ho : o ≠ 1) (x : (⟨2, ![n, o]⟩ : Shape).Idx → EReal) (b : (⟨1, ![o]⟩ : Shape).Idx → EReal)
    (h1 : (⟨1, ![o]⟩ : Shape).BroadcastsInDim ⟨2, ![1, o]⟩ ![1])
    (h2 : (⟨2, ![1, o]⟩ : Shape).BroadcastsInDim ⟨2, ![n, o]⟩ ![0, 1])
    (hc : (⟨1, ![o]⟩ : Shape).ShapeCasts ⟨2, ![1, o]⟩) :
    addf (F := Ideal) (φ := .f32) x (broadcastInDim ⟨2, ![n, o]⟩ ![0, 1] h2 (broadcastInDim ⟨2, ![1, o]⟩ ![1] h1 b))
    = addRow x (shapeCast ⟨2, ![1, o]⟩ b hc) := by
  funext i
  show x i + broadcastInDim ⟨2, ![n, o]⟩ ![0, 1] h2 (broadcastInDim ⟨2, ![1, o]⟩ ![1] h1 b) i
    = x i + shapeCast ⟨2, ![1, o]⟩ b hc (ix2 0 (i 1))
  rw [rows_of_vec ho b h1 h2 i]
  exact (congrArg (fun z => x i + z) (row_of_vec b hc (i 1))).symm

/-- The kernel's bias and positive part inside a body: the row broadcast down the block's rows, added, and the
    maximum with a zero splat. -/
theorem ker_biasRelu {n o : Nat} (ho : o ≠ 1) (x : (⟨2, ![n, o]⟩ : Shape).Idx → EReal) (b : (⟨2, ![1, o]⟩ : Shape).Idx → EReal)
    (h : (⟨2, ![1, o]⟩ : Shape).Broadcasts ⟨2, ![n, o]⟩) :
    maximumf (F := Ideal) (φ := .f32) (addf (F := Ideal) (φ := .f32) x (broadcastTo ⟨2, ![n, o]⟩ b h))
      (broadcast ⟨2, ![n, o]⟩ (Scalar.ofBits (F := Ideal) .f32 0x00000000#32))
    = biasRelu x b := by
  funext i
  show max (x i + broadcastTo ⟨2, ![n, o]⟩ b h i) _ = max (x i + b (ix2 0 (i 1))) _
  rw [rows_of_row ho b h i]
  rfl

/-- The kernel's bias alone inside a body. -/
theorem ker_addRow {n o : Nat} (ho : o ≠ 1) (x : (⟨2, ![n, o]⟩ : Shape).Idx → EReal) (b : (⟨2, ![1, o]⟩ : Shape).Idx → EReal)
    (h : (⟨2, ![1, o]⟩ : Shape).Broadcasts ⟨2, ![n, o]⟩) :
    addf (F := Ideal) (φ := .f32) x (broadcastTo ⟨2, ![n, o]⟩ b h) = addRow x b := by
  funext i
  show x i + broadcastTo ⟨2, ![n, o]⟩ b h i = x i + b (ix2 0 (i 1))
  rw [rows_of_row ho b h i]

end Cert.GCN

namespace Cert.GCN.Ker

open Idealize.ShloMosaic Idealize.ShloMosaic.ValueIdx Cert.GCN Cert.KernelIdeal Cert.KernelIdeal.Gen

/-- What the first bias kernel stores for a block of 20000 rows. -/
theorem pay_bias1 (x : Vec Ideal S20000x64 .f32) (b : Vec Ideal S1x64 .f32) : k1_pay1 (F := Ideal) x b = biasRelu x b := by
  unfold k1_pay1
  rw [shapeCast_self, shapeCast_self]
  exact ker_biasRelu (n := 20000) (o := 64) (by decide) x b _

/-- What the second bias kernel stores for a block of 20000 rows. -/
theorem pay_bias2 (x : Vec Ideal S20000x64 .f32) (b : Vec Ideal S1x64 .f32) : k3_pay1 (F := Ideal) x b = biasRelu x b := by
  unfold k3_pay1
  rw [shapeCast_self, shapeCast_self]
  exact ker_biasRelu (n := 20000) (o := 64) (by decide) x b _

end Cert.GCN.Ker

end
-- ==== Proof.LinearKernel.lean ====
/-
  The kernel's matrix products.  The two projection kernels store, per block of 20000 rows, the `tpu.matmul` of the
  block (rounded to bf16: the identity on extended reals) with the transposed weight into a zero accumulator:
  x · wᵀ of the block (`linear`).  The head kernel's two products over the 128 pooled rows are the same law.
-/
import proofs.«177845_j65317862637644_1_alg».proof.Proof.Linear
import proofs.«177845_j65317862637644_1_alg».proof.Proof.Gen.KernelIdeal.Skeleton

noncomputable section

namespace Cert.GCN.Ker

open Idealize.ShloMosaic Idealize.ShloMosaic.ValueIdx Cert.GCN Cert.KernelIdeal Cert.KernelIdeal.Gen

/-- What the first projection kernel stores for a block of 20000 feature rows. -/
theorem pay_feat (x : Vec Ideal S20000x5 .f32) (w : Vec Ideal S64x5 .f32) :
    k0_pay1 (F := Ideal) x w = linear x w := by
  funext i
  unfold k0_pay1
  rw [shapeCast_self]
  refine (Ideal.matmul_constant_zero_apply _ none _ _ i).trans ?_
  refine (dot_sum (a := 20000) (k := 5) (b := 64) dot_S20000x5_S5x64_S20000x64_1_0_0_1_n_n rfl rfl
    (fun i κ => by
      unfold DotDims.lhsIdx
      rw [dif_neg (show ¬(0 : Fin S20000x5.rank) ∈ dot_S20000x5_S5x64_S20000x64_1_0_0_1_n_n.lhsBatch by decide), dif_pos (show (0 : Fin S20000x5.rank) ∈ dot_S20000x5_S5x64_S20000x64_1_0_0_1_n_n.lhsNonContracting by decide)]
      rfl)
    (fun i κ => dot_S20000x5_S5x64_S20000x64_1_0_0_1_n_n.lhsIdx_val_of_single rfl i κ)
    (fun i κ => dot_S20000x5_S5x64_S20000x64_1_0_0_1_n_n.rhsIdx_val_of_single rfl i κ)
    (fun i κ => by
      unfold DotDims.rhsIdx
      rw [dif_neg (show ¬(1 : Fin S5x64.rank) ∈ dot_S20000x5_S5x64_S20000x64_1_0_0_1_n_n.rhsBatch by decide), dif_pos (show (1 : Fin S5x64.rank) ∈ dot_S20000x5_S5x64_S20000x64_1_0_0_1_n_n.rhsNonContracting by decide)]
      rfl) _ _ i).trans ?_
  exact Finset.sum_congr rfl fun j _ => congrArg (x (ix2 (i 0) j) * ·) (transpose_w w _ j (i 1))

/-- What the second projection kernel stores for a block of 20000 hidden rows. -/
theorem pay_hid (x : Vec Ideal S20000x64 .f32) (w : Vec Ideal S64x64 .f32) :
    k2_pay1 (F := Ideal) x w = linear x w := by
  funext i
  unfold k2_pay1
  rw [shapeCast_self]
  refine (Ideal.matmul_constant_zero_apply _ none _ _ i).trans ?_
  refine (dot_sum (a := 20000) (k := 64) (b := 64) dot_S20000x64_S64x64_S20000x64_1_0_0_1_n_n rfl rfl
    (fun i κ => by
      unfold DotDims.lhsIdx
      rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
      rfl)
    (fun i κ => dot_S20000x64_S64x64_S20000x64_1_0_0_1_n_n.lhsIdx_val_of_single rfl i κ)
    (fun i κ => dot_S20000x64_S64x64_S20000x64_1_0_0_1_n_n.rhsIdx_val_of_single rfl i κ)
    (fun i κ => by
      unfold DotDims.rhsIdx
      rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
      rfl) _ _ i).trans ?_
  exact Finset.sum_congr rfl fun j _ => congrArg (x (ix2 (i 0) j) * ·) (transpose_w w _ j (i 1))

/-- A product of the head kernel: 128 pooled rows (rounded to bf16) against a transposed [64, 64] weight (rounded to
    bf16), into a zero accumulator. -/
theorem mm_pool (x : FVec Ideal S128x64 .f32) (w : FVec Ideal S64x64 .f32) :
    matmul (F := Ideal) dot_S128x64_S64x64_S128x64_1_0_0_1_n_n none (truncf .bf16 x bitsLt_bf16_f32)
      (transpose S64x64 [1, 0] (truncf .bf16 w bitsLt_bf16_f32) transposes_S64x64_p1_0_S64x64)
      (constant S128x64 .f32 0x00000000#32) = linear x w := by
  funext i
  refine (Ideal.matmul_constant_zero_apply _ none _ _ i).trans ?_
  refine (dot_sum (a := 128) (k := 64) (b := 64) dot_S128x64_S64x64_S128x64_1_0_0_1_n_n rfl rfl
    (fun i κ => by
      unfold DotDims.lhsIdx
      rw [dif_neg (show ¬(0 : Fin S128x64.rank) ∈ dot_S128x64_S64x64_S128x64_1_0_0_1_n_n.lhsBatch by decide), dif_pos (show (0 : Fin S128x64.rank) ∈ dot_S128x64_S64x64_S128x64_1_0_0_1_n_n.lhsNonContracting by decide)]
      rfl)
    (fun i κ => dot_S128x64_S64x64_S128x64_1_0_0_1_n_n.lhsIdx_val_of_single rfl i κ)
    (fun i κ => dot_S128x64_S64x64_S128x64_1_0_0_1_n_n.rhsIdx_val_of_single rfl i κ)
    (fun i κ => by
      unfold DotDims.rhsIdx
      rw [dif_neg (show ¬(1 : Fin S64x64.rank) ∈ dot_S128x64_S64x64_S128x64_1_0_0_1_n_n.rhsBatch by decide), dif_pos (show (1 : Fin S64x64.rank) ∈ dot_S128x64_S64x64_S128x64_1_0_0_1_n_n.rhsNonContracting by decide)]
      rfl) _ _ i).trans ?_
  exact Finset.sum_congr rfl fun j _ => congrArg (x (ix2 (i 0) j) * ·) (transpose_w w _ j (i 1))

end Cert.GCN.Ker

end
-- ==== Proof.LibLayoutCols.lean ====
/-
  Layout operations of small rank read at an index written by coordinates: the forms a kernel meets when it keeps a
  reduced axis as a unit axis (`keepdims`) and when it expands a matrix over a new middle axis.

  * a vector of length `a` cast to a column `[a, 1]`;
  * a column `[a, 1]` broadcast along its unit axis to `[a, b]`;
  * a matrix `[a, b]` cast to `[a, 1, b]`, and that broadcast along the new axis to `[a, k, b]`;
  * a column `[k, 1]` cast to `[1, k, 1]`, and that broadcast along both unit axes to `[a, k, b]`.
  A cast keeps the row-major position of an element; a broadcast reads coordinate `0` on the operand's unit axes.
-/
import Idealize.ShloMosaic.Lib.Pipeline.Value
import Idealize.ShloMosaic.Lib.ValueIdx

namespace Cert.LibLayoutCols

open Idealize.ShloMosaic Idealize.ShloMosaic.ValueIdx

variable {α : Type}

/-- A vector of length `a` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix `[a, b]` cast to `[a, 1, b]` reads, at `(p, u, c)`, the matrix at `(p, c)`. -/
theorem shapeCast_ab_a1b_apply {a b : ℕ} (x : (⟨2, ![a, b]⟩ : Shape).Idx → α) (h : (⟨2, ![a, b]⟩ : Shape).ShapeCasts ⟨3, ![a, 1, b]⟩)
    (p : Fin a) (u : Fin 1) (c : Fin b) : shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An array `[a, 1, b]` broadcast to `[a, k, b]` reads, at `(p, q, c)`, the operand at `(p, 0, c)`. -/
theorem broadcastTo_a1b_akb_apply {a k b : ℕ} (x : (⟨3, ![a, 1, b]⟩ : Shape).Idx → α)
    (h : (⟨3, ![a, 1, b]⟩ : Shape).Broadcasts ⟨3, ![a, k, b]⟩) (p : Fin a) (q : Fin k) (c : Fin b) :
    broadcastTo ⟨3, ![a, k, b]⟩ x h (ix3 p q c) = x (ix3 p (0 : Fin 1) c) := by
  refine broadcastTo_apply x h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

/-- A column `[k, 1]` cast to `[1, k, 1]` reads, at `(u, q, w)`, the column at row `q`. -/
theorem shapeCast_k1_1k1_apply {k : ℕ} (x : (⟨2, ![k, 1]⟩ : Shape).Idx → α) (h : (⟨2, ![k, 1]⟩ : Shape).ShapeCasts ⟨3, ![1, k, 1]⟩)
    (u : Fin 1) (q : Fin k) (w : Fin 1) : shapeCast ⟨3, ![1, k, 1]⟩ x h (ix3 u q w) = x (ix2 q (0 : Fin 1)) :=
  shapeCast_apply x h _ _ (by
    have hu : u.val = 0 := by omega
    have hw : w.val = 0 := by omega
    rw [Shape.rowMajor_val_three, Shape.rowMajor_val_two]
    show q.val * 1 + 0 = (u.val * k + q.val) * 1 + w.val
    rw [hu, hw, Nat.zero_mul, Nat.zero_add])

/-- An array `[1, k, 1]` broadcast to `[a, k, b]` reads, at `(p, q, c)`, the operand at `(0, q, 0)`. -/
theorem broadcastTo_1k1_akb_apply {a k b : ℕ} (x : (⟨3, ![1, k, 1]⟩ : Shape).Idx → α)
    (h : (⟨3, ![1, k, 1]⟩ : Shape).Broadcasts ⟨3, ![a, k, b]⟩) (p : Fin a) (q : Fin k) (c : Fin b) :
    broadcastTo ⟨3, ![a, k, b]⟩ x h (ix3 p q c) = x (ix3 (0 : Fin 1) q (0 : Fin 1)) := by
  refine broadcastTo_apply x h (ix3 p q c) (ix3 (0 : Fin 1) q (0 : Fin 1)) fun ax => ?_
  match ax with
  | ⟨0, _⟩ => rfl
  | ⟨1, _⟩ =>
    show q.val = if k = 1 then 0 else q.val
    split
    · have := q.isLt; omega
    · rfl
  | ⟨2, _⟩ => rfl

end Cert.LibLayoutCols
-- ==== Proof.Head.lean ====
/-
  The head of the network on the 128 pooled rows: mean pooling (each row of the per-graph sums divided by the graph's node
  count, a count below one read as one), two dense layers (the first with its positive part), and the rows scaled to unit
  Euclidean length (the length floored at the f32 nearest 1e-12).  The kernel computes all of it in one body from a
  [128, 1] column of counts and [1, 64] bias rows; the reference on the host from the [128] counts and [64] biases,
  broadcast step by step.  Each side's term is `head` of the same arrays.
-/
import proofs.«177845_j65317862637644_1_alg».proof.Proof.BiasRelu
import proofs.«177845_j65317862637644_1_alg».proof.Proof.LinearKernel
import proofs.«177845_j65317862637644_1_alg».proof.Proof.LinearRef
import proofs.«177845_j65317862637644_1_alg».proof.Proof.LibLayoutCols

noncomputable section

namespace Cert.GCN

open Idealize.ShloMosaic Idealize.ShloMosaic.ValueIdx Cert.LibLayoutCols

/-- Each row of the sums over its count, the count floored at one. -/
def meanPool (s : (⟨2, ![128, 64]⟩ : Shape).Idx → EReal) (c : (⟨2, ![128, 1]⟩ : Shape).Idx → EReal) : (⟨2, ![128, 64]⟩ : Shape).Idx → EReal :=
  fun i => Ideal.div (s i) (max (c (ix2 (i 0) 0)) (Ideal.ofBits .f32 0x3F800000#32))

/-- Each row over its Euclidean length, the length floored at the f32 nearest 1e-12. -/
def unitRows (e : (⟨2, ![128, 64]⟩ : Shape).Idx → EReal) : (⟨2, ![128, 64]⟩ : Shape).Idx → EReal :=
  fun i => Ideal.div (e i)
    (max (Ideal.sqrt (∑ k : Fin 64, e (ix2 (i 0) k) * e (ix2 (i 0) k))) (Ideal.ofBits .f32 0x2B8CBCCC#32))

/-- The whole head. -/
def head (s : (⟨2, ![128, 64]⟩ : Shape).Idx → EReal) (c : (⟨2, ![128, 1]⟩ : Shape).Idx → EReal)
    (w1 : (⟨2, ![64, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal) : (⟨2, ![128, 64]⟩ : Shape).Idx → EReal :=
  unitRows (addRow (linear (biasRelu (linear (meanPool s c) w1) b1) w2) b2)

/-! ## The kernel's forms -/

/-- The column of counts floored at one and broadcast along the rows, inside the body. -/
theorem ker_meanPool (s : (⟨2, ![128, 64]⟩ : Shape).Idx → EReal) (c : (⟨2, ![128, 1]⟩ : Shape).Idx → EReal)
    (h : (⟨2, ![128, 1]⟩ : Shape).Broadcasts (⟨2, ![128, 64]⟩ : Shape)) :
    divf (F := Ideal) (φ := .f32) s (broadcastTo (⟨2, ![128, 64]⟩ : Shape) (maximumf (F := Ideal) (φ := .f32) c
      (broadcast (⟨2, ![128, 1]⟩ : Shape) (Scalar.ofBits (F := Ideal) .f32 0x3F800000#32))) h) = meanPool s c := by
  funext i
  obtain ⟨p, q, rfl⟩ : ∃ (p : Fin 128) (q : Fin 64), i = ix2 p q := ⟨i 0, i 1, eq_ix2 i⟩
  show Ideal.div (s (ix2 p q)) (broadcastTo (⟨2, ![128, 64]⟩ : Shape) _ h (ix2 p q)) = _
  rw [broadcastTo_a1_ab_apply]
  rfl

/-- The row sums of squares kept as a column, its square root floored and broadcast along the rows, inside the body. -/
theorem ker_unitRows (e : (⟨2, ![128, 64]⟩ : Shape).Idx → EReal) (hr : (⟨2, ![128, 64]⟩ : Shape).Reduces [1] (⟨1, ![128]⟩ : Shape))
    (hφ : FKind.Formats .f32) (hacc : (0x00000000#32 : BitVec 32) = FKind.add.neutral .f32 hφ)
    (hc : (⟨1, ![128]⟩ : Shape).ShapeCasts (⟨2, ![128, 1]⟩ : Shape)) (hb : (⟨2, ![128, 1]⟩ : Shape).Broadcasts (⟨2, ![128, 64]⟩ : Shape)) :
    divf (F := Ideal) (φ := .f32) e (broadcastTo (⟨2, ![128, 64]⟩ : Shape) (maximumf (F := Ideal) (φ := .f32)
      (sqrt (F := Ideal) (φ := .f32) (shapeCast (⟨2, ![128, 1]⟩ : Shape) (multiReduction (F := Ideal) .add [1] (⟨1, ![128]⟩ : Shape)
        (mulf (F := Ideal) (φ := .f32) e e) 0x00000000#32 hr hφ hacc) hc))
      (broadcast (⟨2, ![128, 1]⟩ : Shape) (Scalar.ofBits (F := Ideal) .f32 0x2B8CBCCC#32))) hb) = unitRows e := by
  funext i
  obtain ⟨p, q, rfl⟩ : ∃ (p : Fin 128) (q : Fin 64), i = ix2 p q := ⟨i 0, i 1, eq_ix2 i⟩
  show Ideal.div (e (ix2 p q)) (broadcastTo (⟨2, ![128, 64]⟩ : Shape) _ hb (ix2 p q)) = _
  rw [broadcastTo_a1_ab_apply]
  show Ideal.div (e (ix2 p q)) (max (Ideal.sqrt (shapeCast (⟨2, ![128, 1]⟩ : Shape) _ hc (ix2 p (0 : Fin 1)))) _) = _
  rw [shapeCast_a_a1_apply]
  refine congrArg (fun z => Ideal.div (e (ix2 p q)) (max (Ideal.sqrt z) (Ideal.ofBits .f32 0x2B8CBCCC#32))) ?_
  refine (Ideal.multiReduction_add_single (mulf (F := Ideal) (φ := .f32) e e) 0x00000000#32 hr hφ hacc (ix1 p)).trans ?_
  refine Finset.sum_congr rfl fun k _ => ?_
  have hk : hr.lift (ix1 p) k = ix2 p k := funext fun a => Fin.ext (by match a with | ⟨0, _⟩ => rfl | ⟨1, _⟩ => rfl)
  rw [hk]
  rfl

/-! ## The reference's forms -/

/-- The counts floored at one on the host, broadcast to a column and along the rows. -/
theorem ref_meanPool (s : (⟨2, ![128, 64]⟩ : Shape).Idx → EReal) (c : (⟨1, ![128]⟩ : Shape).Idx → EReal)
    (h0 : (⟨0, ![]⟩ : Shape).BroadcastsInDim (⟨1, ![128]⟩ : Shape) ![])
    (h1 : (⟨1, ![128]⟩ : Shape).BroadcastsInDim (⟨2, ![128, 1]⟩ : Shape) ![0])
    (h2 : (⟨2, ![128, 1]⟩ : Shape).BroadcastsInDim (⟨2, ![128, 64]⟩ : Shape) ![0, 1])
    (hc : (⟨1, ![128]⟩ : Shape).ShapeCasts (⟨2, ![128, 1]⟩ : Shape)) :
    Host.divf (F := Ideal) (φ := .f32) s (broadcastInDim (s := (⟨2, ![128, 1]⟩ : Shape)) (⟨2, ![128, 64]⟩ : Shape) ![0, 1] h2 (broadcastInDim (s := (⟨1, ![128]⟩ : Shape)) (⟨2, ![128, 1]⟩ : Shape) ![0] h1
      (maximumf (F := Ideal) (φ := .f32) c (broadcastInDim (s := (⟨0, ![]⟩ : Shape)) (⟨1, ![128]⟩ : Shape) ![] h0 (constant (F := Ideal) ⟨0, ![]⟩ .f32 0x3F800000#32)))))
    = meanPool s (shapeCast (⟨2, ![128, 1]⟩ : Shape) c hc) := by
  funext i
  obtain ⟨p, q, rfl⟩ : ∃ (p : Fin 128) (q : Fin 64), i = ix2 p q := ⟨i 0, i 1, eq_ix2 i⟩
  show Ideal.div (s (ix2 p q)) (broadcastInDim (s := (⟨2, ![128, 1]⟩ : Shape)) (⟨2, ![128, 64]⟩ : Shape) ![0, 1] h2 _ (ix2 p q))
    = Ideal.div (s (ix2 p q)) (max (shapeCast (⟨2, ![128, 1]⟩ : Shape) c hc (ix2 p (0 : Fin 1))) (Ideal.ofBits .f32 0x3F800000#32))
  rw [broadcastInDim_apply ![0, 1] h2 _ (ix2 p q) (ix2 p (0 : Fin 1)) (fun a => match a with
      | ⟨0, _⟩ => by show p.val = if (128 : Nat) = 1 then 0 else p.val; rw [if_neg (by decide)]
      | ⟨1, _⟩ => by show 0 = if (1 : Nat) = 1 then 0 else q.val; rw [if_pos rfl]),
    broadcastInDim_apply ![0] h1 _ (ix2 p (0 : Fin 1)) (ix1 p) (fun a => match a with
      | ⟨0, _⟩ => by show p.val = if (128 : Nat) = 1 then 0 else p.val; rw [if_neg (by decide)]),
    shapeCast_a_a1_apply]
  show Ideal.div _ (max (c (ix1 p)) (broadcastInDim (s := (⟨0, ![]⟩ : Shape)) (⟨1, ![128]⟩ : Shape) ![] h0 _ (ix1 p))) = _
  rw [splat_const]

/-- The row sums of squares on the host, broadcast to a column, its square root floored and broadcast along the rows. -/
theorem ref_unitRows (e : (⟨2, ![128, 64]⟩ : Shape).Idx → EReal)
    (rt : (⟨2, ![128, 64]⟩ : Shape).ReducesTo [1] (⟨1, ![128]⟩ : Shape)) (hS : 0 < (⟨0, ![]⟩ : Shape).numel)
    (h0 : (⟨0, ![]⟩ : Shape).BroadcastsInDim (⟨2, ![128, 1]⟩ : Shape) ![])
    (h1 : (⟨1, ![128]⟩ : Shape).BroadcastsInDim (⟨2, ![128, 1]⟩ : Shape) ![0])
    (h2 : (⟨2, ![128, 1]⟩ : Shape).BroadcastsInDim (⟨2, ![128, 64]⟩ : Shape) ![0, 1]) :
    Host.divf (F := Ideal) (φ := .f32) e (broadcastInDim (s := (⟨2, ![128, 1]⟩ : Shape)) (⟨2, ![128, 64]⟩ : Shape) ![0, 1] h2 (maximumf (F := Ideal) (φ := .f32)
      (Host.sqrt (F := Ideal) (φ := .f32) (broadcastInDim (s := (⟨1, ![128]⟩ : Shape)) (⟨2, ![128, 1]⟩ : Shape) ![0] h1
        (Host.reduceAdd (F := Ideal) (mulf (F := Ideal) (φ := .f32) e e) (constant (F := Ideal) ⟨0, ![]⟩ .f32 0x00000000#32) rt hS)))
      (broadcastInDim (s := (⟨0, ![]⟩ : Shape)) (⟨2, ![128, 1]⟩ : Shape) ![] h0 (constant (F := Ideal) ⟨0, ![]⟩ .f32 0x2B8CBCCC#32))))
    = unitRows e := by
  funext i
  obtain ⟨p, q, rfl⟩ : ∃ (p : Fin 128) (q : Fin 64), i = ix2 p q := ⟨i 0, i 1, eq_ix2 i⟩
  show Ideal.div (e (ix2 p q)) (broadcastInDim (s := (⟨2, ![128, 1]⟩ : Shape)) (⟨2, ![128, 64]⟩ : Shape) ![0, 1] h2 _ (ix2 p q)) = _
  rw [broadcastInDim_apply ![0, 1] h2 _ (ix2 p q) (ix2 p (0 : Fin 1)) (fun a => match a with
      | ⟨0, _⟩ => by show p.val = if (128 : Nat) = 1 then 0 else p.val; rw [if_neg (by decide)]
      | ⟨1, _⟩ => by show 0 = if (1 : Nat) = 1 then 0 else q.val; rw [if_pos rfl])]
  show Ideal.div (e (ix2 p q)) (max (Ideal.sqrt (broadcastInDim (s := (⟨1, ![128]⟩ : Shape)) (⟨2, ![128, 1]⟩ : Shape) ![0] h1 _ (ix2 p (0 : Fin 1))))
    (broadcastInDim (s := (⟨0, ![]⟩ : Shape)) (⟨2, ![128, 1]⟩ : Shape) ![] h0 _ (ix2 p (0 : Fin 1)))) = _
  rw [broadcastInDim_apply ![0] h1 _ (ix2 p (0 : Fin 1)) (ix1 p) (fun a => match a with
      | ⟨0, _⟩ => by show p.val = if (128 : Nat) = 1 then 0 else p.val; rw [if_neg (by decide)]),
    splat_const]
  refine congrArg (fun z => Ideal.div (e (ix2 p q)) (max (Ideal.sqrt z) (Ideal.ofBits .f32 0x2B8CBCCC#32))) ?_
  simp only [Host.reduceAdd, Ideal.hostReduceAdd_def]
  rw [Ideal.hostReduceAdd_single rt (by decide)]
  show Ideal.ofBits .f32 0x00000000#32 + _ = _
  rw [Ideal.ofBits_zero_f32, zero_add]
  refine Finset.sum_congr rfl fun k _ => ?_
  exact congrArg (mulf (F := Ideal) (φ := .f32) e e) (funext fun a => Fin.ext (by match a with | ⟨0, _⟩ => rfl | ⟨1, _⟩ => rfl))

end Cert.GCN

namespace Cert.GCN.Ker

open Idealize.ShloMosaic Idealize.ShloMosaic.ValueIdx Cert.GCN Cert.KernelIdeal Cert.KernelIdeal.Gen

/-- What the head kernel stores: `head` of its six loaded arrays (the weights and biases interleaved as the body loads
    them). -/
theorem pay_head (s : Vec Ideal S128x64 .f32) (c : Vec Ideal S128x1 .f32) (w1 w2 : Vec Ideal S64x64 .f32)
    (b1 b2 : Vec Ideal S1x64 .f32) : k4_pay1 (F := Ideal) s c w1 w2 b1 b2 = head s c w1 b1 w2 b2 := by
  unfold k4_pay1
  simp only [shapeCast_self]
  rw [ker_meanPool, mm_pool, ker_biasRelu (n := 128) (o := 64) (by decide), mm_pool,
    ker_addRow (n := 128) (o := 64) (by decide)]
  exact ker_unitRows _ reduces_S128x64_S128 _ _ shapeCasts_S128_S128x1 broadcasts_S128x1_S128x64

end Cert.GCN.Ker

end
-- ==== Proof.RefStages.lean ====
/-
  The reference's stages that the kernel computes inside its pipelines, in the forms the kernel's are proved in:
  both projections are x · wᵀ, both layer outputs max (x + b) 0, and the result is `head` of the pooled sums, the
  counts as a column, and the head's weights and biases.
-/
import proofs.«177845_j65317862637644_1_alg».proof.Proof.RefRead
import proofs.«177845_j65317862637644_1_alg».proof.Proof.LinearRef
import proofs.«177845_j65317862637644_1_alg».proof.Proof.Head

noncomputable section

namespace Cert.GCN.Ref

open Idealize.ShloMosaic Cert.GCN Cert.ReferenceIdeal Cert.ReferenceIdeal.Gen Cert.ReferenceIdeal.Read

/-- The first projection. -/
theorem lin1 (x0 : (⟨S100000x6, .f32⟩ : BufTy).Contents (Elt Ideal)) (x1 : (⟨S64x5, .f32⟩ : BufTy).Contents (Elt Ideal)) :
    val_main_v34 (F := Ideal) x0 x1 = linear (val_main_v0 (F := Ideal) x0) x1 := by
  unfold val_main_v34 val_main_v33
  exact dot_feat _ _ _

/-- The first layer's output. -/
theorem relu1 (x0 : (⟨S100000x6, .f32⟩ : BufTy).Contents (Elt Ideal)) (x1 : (⟨S64x5, .f32⟩ : BufTy).Contents (Elt Ideal)) (x2 : (⟨S64, .f32⟩ : BufTy).Contents (Elt Ideal)) (x9 : (⟨S2x3200000, .i32⟩ : BufTy).Contents (Elt Ideal)) (hc : S64.ShapeCasts S1x64) :
    val_main_v51 (F := Ideal) x0 x1 x2 x9 = biasRelu (val_main_v47 (F := Ideal) x0 x1 x9) (shapeCast S1x64 x2 hc) := by
  unfold val_main_v51 val_main_v50 val_main_v49 val_main_v48 val_main_call1_v0 val_main_call1_cst
  exact ref_biasRelu (n := 100000) (o := 64) (by decide) _ _ _ _ _ hc

/-- The second projection. -/
theorem lin2 (x0 : (⟨S100000x6, .f32⟩ : BufTy).Contents (Elt Ideal)) (x1 : (⟨S64x5, .f32⟩ : BufTy).Contents (Elt Ideal)) (x2 : (⟨S64, .f32⟩ : BufTy).Contents (Elt Ideal)) (x3 : (⟨S64x64, .f32⟩ : BufTy).Contents (Elt Ideal)) (x9 : (⟨S2x3200000, .i32⟩ : BufTy).Contents (Elt Ideal)) :
    val_main_v81 (F := Ideal) x0 x1 x2 x3 x9 = linear (val_main_v51 (F := Ideal) x0 x1 x2 x9) x3 := by
  unfold val_main_v81 val_main_v80
  exact dot_hid _ _ _

/-- The second layer's output. -/
theorem relu2 (x0 : (⟨S100000x6, .f32⟩ : BufTy).Contents (Elt Ideal)) (x1 : (⟨S64x5, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x9 : (⟨S2x3200000, .i32⟩ : BufTy).Contents (Elt Ideal)) (hc : S64.ShapeCasts S1x64) :
    val_main_v98 (F := Ideal) x0 x1 x2 x3 x4 x9
      = biasRelu (val_main_v94 (F := Ideal) x0 x1 x2 x3 x9) (shapeCast S1x64 x4 hc) := by
  unfold val_main_v98 val_main_v97 val_main_v96 val_main_v95 val_main_call3_v0 val_main_call3_cst
  exact ref_biasRelu (n := 100000) (o := 64) (by decide) _ _ _ _ _ hc

/-- The result. -/
theorem out (x0 : (⟨S100000x6, .f32⟩ : BufTy).Contents (Elt Ideal)) (x1 : (⟨S64x5, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S2x3200000, .i32⟩ : BufTy).Contents (Elt Ideal)) (x10 : (⟨S100000, .i32⟩ : BufTy).Contents (Elt Ideal))
    (hc : S128.ShapeCasts S128x1) (hb : S64.ShapeCasts S1x64) :
    val_main_v126 (F := Ideal) x0 x1 x2 x3 x4 x5 x6 x7 x8 x9 x10
      = head (val_main_v101 (F := Ideal) x0 x1 x2 x3 x4 x9 x10) (shapeCast S128x1 (val_main_v105 (F := Ideal) x10) hc)
          x5 (shapeCast S1x64 x6 hb) x7 (shapeCast S1x64 x8 hb) := by
  simp only [val_main_v126, val_main_v125, val_main_v124, val_main_v123, val_main_cst_26, val_main_v122, val_main_call5_v2,
    val_main_call5_v1, val_main_call5_cst, val_main_call5_v0, val_main_v121, val_main_v120, val_main_v119, val_main_v118,
    val_main_v117, val_main_v116, val_main_call4_v0, val_main_call4_cst, val_main_v115, val_main_v114, val_main_v113,
    val_main_v112, val_main_v111, val_main_v110, val_main_v109, val_main_v108, val_main_v107, val_main_v106, val_main_cst_25]
  rw [ref_meanPool _ _ _ _ _ hc, dot_pool, ref_biasRelu (n := 128) (o := 64) (by decide) _ _ _ _ _ hb, dot_pool,
    ref_addRow (n := 128) (o := 64) (by decide) _ _ _ _ hb, ref_unitRows]
  rfl

end Cert.GCN.Ref

end
-- ==== Proof.Region0.lean ====
/-
  The first projection: the 100000 feature rows against the [64, 5] weight.
  The pipeline walks the 100000 rows in 5 blocks of 20000; at point t it fetches rows 20000·t … 20000·t + 19999 of the
  array and the whole weight, stores x · wᵀ of the block, and writes it back to the same rows of the result.  The five
  blocks cover the result, which therefore ends as x · wᵀ of the whole array — whatever the region finds in its
  buffers on entry (`V`).
-/
import proofs.«177845_j65317862637644_1_alg».proof.Proof.Gen.KernelIdeal.Frame
import proofs.«177845_j65317862637644_1_alg».proof.Proof.LinearKernel

set_option maxRecDepth 16384

noncomputable section

namespace Cert.KernelIdeal.Reg0

open Cert.KernelIdeal Cert.KernelIdeal.Gen Cert.GCN
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the array's and the result's row block is the point, the weight's block is
    the whole weight. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p, column j of point t's array block is row 20000·t + p, column j of the array. -/
theorem xblk (c : Dev nD) (t : Fin cfg0.N) (p : Fin 20000) (j : Fin 5) (r : Fin 100000) (hr : r.val = 20000 * t.val + p.val) :
    (iblk0 V c 0 t : Vec Ideal S20000x5 .f32) (ix2 p j) = (V c main_v0 : S100000x5.Idx → EReal) (ix2 r j) := by
  obtain ⟨e0, e1, -, -, -, -⟩ := idx t
  unfold iblk0
  rw [View.read_apply]
  show V c main_v0 _ = V c main_v0 _
  congr 1
  funext a
  apply Fin.ext
  match a with
  | ⟨0, _⟩ => show win0_0.index t 0 * 20000 + 1 * p.val = r.val; rw [e0, hr]; omega
  | ⟨1, _⟩ => show win0_0.index t 1 * 5 + 1 * j.val = j.val; rw [e1]; omega

/-- The weight's block is the weight. -/
theorem wblk (c : Dev nD) (t : Fin cfg0.N) (q : Fin 64) (j : Fin 5) :
    (iblk0 V c 1 t : Vec Ideal S64x5 .f32) (ix2 q j) = (V c main_arg1 : S64x5.Idx → EReal) (ix2 q j) := by
  obtain ⟨-, -, e2, e3, -, -⟩ := idx t
  unfold iblk0
  rw [View.read_apply]
  show V c main_arg1 _ = V c main_arg1 _
  congr 1
  funext a
  apply Fin.ext
  match a with
  | ⟨0, _⟩ => show win0_1.index t 0 * 64 + 1 * q.val = q.val; rw [e2]; omega
  | ⟨1, _⟩ => show win0_1.index t 1 * 5 + 1 * j.val = j.val; rw [e3]; omega

/-- What point t writes back is block t of x · wᵀ of the arrays as the region finds them. -/
theorem flushed_eq (c : Dev nD) (t : Fin cfg0.N) :
    (dat0 V c).flushed 2 t = ((cfg0.win 2).blk t).view.read (Elt Ideal)
      (linear (V c main_v0 : S100000x5.Idx → EReal) (V c main_arg1 : S64x5.Idx → EReal)) := by
  show (cfg0.win 2).cut (grid0.coords t) ((dat0 V c).after 2 t) = _
  rw [after0_2]
  unfold out0_2
  rw [View.canon_unit_zero hz]
  simp only [View.ld_unit_zero (S := S20000x5) hz, View.ld_unit_zero (S := S64x5) hz]
  rw [Ker.pay_feat]
  obtain ⟨-, -, -, -, e4, e5⟩ := idx t
  funext y
  rw [View.read_apply]
  have hy0 : (y 0).val < 20000 := (y 0).isLt
  have hy1 : (y 1).val < 64 := (y 1).isLt
  have ht : t.val < 5 := Nat.lt_of_lt_of_eq t.isLt N_0
  have hemb : ((cfg0.win 2).blk t).view.emb y = ix2 (⟨20000 * t.val + (y 0).val, by omega⟩ : Fin 100000) (⟨(y 1).val, hy1⟩ : Fin 64) := by
    funext a
    apply Fin.ext
    match a with
    | ⟨0, _⟩ => show win0_2.index t 0 * 20000 + 1 * (y 0).val = 20000 * t.val + (y 0).val; rw [e4]; omega
    | ⟨1, _⟩ => show win0_2.index t 1 * 64 + 1 * (y 1).val = (y 1).val; rw [e5]; omega
  rw [hemb]
  show linear (iblk0 V c 0 t : Vec Ideal S20000x5 .f32) (iblk0 V c 1 t : Vec Ideal S64x5 .f32) (ix2 (⟨(y 0).val, hy0⟩ : Fin 20000) (⟨(y 1).val, hy1⟩ : Fin 64)) = _
  rw [linear_apply, linear_apply]
  exact Finset.sum_congr rfl fun j _ => by
    rw [xblk V c t ⟨(y 0).val, hy0⟩ j ⟨20000 * t.val + (y 0).val, by omega⟩ rfl, wblk V c t ⟨(y 1).val, hy1⟩ j]

/-- An index of the result is in point t's block iff its row is among the block's rows. -/
theorem mem_blk (t : Fin cfg0.N) (i : S100000x64.Idx) :
    i ∈ ((cfg0.win 2).blk t).view.set ↔ ∀ a : Fin 2, win0_2.index t a * S20000x64.size a ≤ (i a).val ∧ (i a).val < win0_2.index t a * S20000x64.size a + S20000x64.size a := by
  show i ∈ ((View.whole main_v33).slice (win0_2.rect t)).set ↔ _
  rw [View.set_slice_whole, Rect.mem_set_unit]
  exact Iff.rfl

/-- Every block index below 5 is some point's. -/
theorem onto : ∀ q : Fin 5, ∃ t : Fin cfg0.N, t.val = q.val :=
  (by decide +kernel : ∀ q : Fin 5, ∃ t : Fin grid0.N, t.val = q.val)

/-- The five row blocks cover the result: row r is in block r / 20000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto ⟨(i 0).val / 20000, by omega⟩
  have ht' : t.val = (i 0).val / 20000 := ht
  obtain ⟨-, -, -, -, e4, e5⟩ := idx t
  refine ⟨t, flush0_2 t, ?_⟩
  rw [mem_blk]
  intro a
  match a with
  | ⟨0, _⟩ => show win0_2.index t 0 * 20000 ≤ (i 0).val ∧ (i 0).val < win0_2.index t 0 * 20000 + 20000; rw [e4, ht']; omega
  | ⟨1, _⟩ => show win0_2.index t 1 * 64 ≤ (i 1).val ∧ (i 1).val < win0_2.index t 1 * 64 + 64; rw [e5]; omega

/-- The result array after the region: x · wᵀ of the arrays the region found. -/
theorem value (c : Dev nD) : (dat0 V c).arrAt 2 cfg0.N
    = linear (V c main_v0 : S100000x5.Idx → EReal) (V c main_arg1 : S64x5.Idx → EReal) :=
  (dat0 V c).arrAt_eq_of_cover 2 _ (fun t _ => flushed_eq V c t) cover

end Cert.KernelIdeal.Reg0

end
-- ==== Proof.Region1.lean ====
/-
  The first layer's bias and positive part on the aggregated rows.
  The pipeline walks the 100000 rows in 5 blocks of 20000; at point t it fetches rows 20000·t … 20000·t + 19999 of the
  aggregated array and the whole [1, 64] bias row, stores max (x + b) 0 of the block, and writes it back to the same
  rows of the result.  The five blocks cover the result, which therefore ends as max (x + b) 0 of the whole array —
  whatever the region finds in its buffers on entry (`V`).
-/
import proofs.«177845_j65317862637644_1_alg».proof.Proof.Gen.KernelIdeal.Frame
import proofs.«177845_j65317862637644_1_alg».proof.Proof.BiasRelu

set_option maxRecDepth 16384

noncomputable section

namespace Cert.KernelIdeal.Reg1

open Cert.KernelIdeal Cert.KernelIdeal.Gen Cert.GCN
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the array's and the result's row block is the point, the bias row's block
    is the whole row. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p, column q of point t's array block is row 20000·t + p, column q of the array. -/
theorem xblk (c : Dev nD) (t : Fin cfg1.N) (p : Fin 20000) (q : Fin 64) (r : Fin 100000) (hr : r.val = 20000 * t.val + p.val) :
    (iblk1 V c 0 t : Vec Ideal S20000x64 .f32) (ix2 p q) = (V c main_v46 : S100000x64.Idx → EReal) (ix2 r q) := by
  obtain ⟨e0, e1, -, -, -, -⟩ := idx t
  unfold iblk1
  rw [View.read_apply]
  show V c main_v46 _ = V c main_v46 _
  congr 1
  funext a
  apply Fin.ext
  match a with
  | ⟨0, _⟩ => show win1_0.index t 0 * 20000 + 1 * p.val = r.val; rw [e0, hr]; omega
  | ⟨1, _⟩ => show win1_0.index t 1 * 64 + 1 * q.val = q.val; rw [e1]; omega

/-- The bias row's block is the bias row. -/
theorem bblk (c : Dev nD) (t : Fin cfg1.N) (u : Fin 1) (q : Fin 64) :
    (iblk1 V c 1 t : Vec Ideal S1x64 .f32) (ix2 u q) = (V c main_v47 : S1x64.Idx → EReal) (ix2 u q) := by
  obtain ⟨-, -, e2, e3, -, -⟩ := idx t
  unfold iblk1
  rw [View.read_apply]
  show V c main_v47 _ = V c main_v47 _
  congr 1
  funext a
  apply Fin.ext
  match a with
  | ⟨0, _⟩ => show win1_1.index t 0 * 1 + 1 * u.val = u.val; rw [e2]; omega
  | ⟨1, _⟩ => show win1_1.index t 1 * 64 + 1 * q.val = q.val; rw [e3]; omega

/-- max (x + b) 0 at an entry depends on the entry of x and on the bias of its column only. -/
theorem block_row {n N o : Nat} (xb : (⟨2, ![n, o]⟩ : Shape).Idx → EReal) (bb : (⟨2, ![1, o]⟩ : Shape).Idx → EReal)
    (X : (⟨2, ![N, o]⟩ : Shape).Idx → EReal) (B : (⟨2, ![1, o]⟩ : Shape).Idx → EReal) (p : Fin n) (q : Fin o) (r : Fin N)
    (hx : xb (ix2 p q) = X (ix2 r q)) (hb : bb (ix2 0 q) = B (ix2 0 q)) :
    biasRelu xb bb (ix2 p q) = biasRelu X B (ix2 r q) := by
  show max (xb (ix2 p q) + bb (ix2 0 q)) _ = max (X (ix2 r q) + B (ix2 0 q)) _
  rw [hx, hb]

/-- What point t writes back is block t of max (x + b) 0 of the arrays as the region finds them. -/
theorem flushed_eq (c : Dev nD) (t : Fin cfg1.N) :
    (dat1 V c).flushed 2 t = ((cfg1.win 2).blk t).view.read (Elt Ideal)
      (biasRelu (V c main_v46 : S100000x64.Idx → EReal) (V c main_v47 : S1x64.Idx → EReal)) := by
  show (cfg1.win 2).cut (grid1.coords t) ((dat1 V c).after 2 t) = _
  rw [after1_2]
  unfold out1_2
  rw [View.canon_unit_zero hz]
  simp only [View.ld_unit_zero (S := S20000x64) hz, View.ld_unit_zero (S := S1x64) hz]
  rw [Ker.pay_bias1]
  obtain ⟨-, -, -, -, e4, e5⟩ := idx t
  funext y
  rw [View.read_apply]
  have hy0 : (y 0).val < 20000 := (y 0).isLt
  have hy1 : (y 1).val < 64 := (y 1).isLt
  have ht : t.val < 5 := Nat.lt_of_lt_of_eq t.isLt N_1
  have hemb : ((cfg1.win 2).blk t).view.emb y = ix2 (⟨20000 * t.val + (y 0).val, by omega⟩ : Fin 100000) (⟨(y 1).val, hy1⟩ : Fin 64) := by
    funext a
    apply Fin.ext
    match a with
    | ⟨0, _⟩ => show win1_2.index t 0 * 20000 + 1 * (y 0).val = 20000 * t.val + (y 0).val; rw [e4]; omega
    | ⟨1, _⟩ => show win1_2.index t 1 * 64 + 1 * (y 1).val = (y 1).val; rw [e5]; omega
  rw [hemb]
  have hy : y = ix2 (⟨(y 0).val, hy0⟩ : Fin 20000) (⟨(y 1).val, hy1⟩ : Fin 64) := funext fun a => by
    match a with
    | ⟨0, _⟩ => rfl
    | ⟨1, _⟩ => rfl
  refine (congrArg (biasRelu (iblk1 V c 0 t : Vec Ideal S20000x64 .f32) (iblk1 V c 1 t : Vec Ideal S1x64 .f32)) hy).trans ?_
  exact block_row _ _ _ _ ⟨(y 0).val, hy0⟩ ⟨(y 1).val, hy1⟩ ⟨20000 * t.val + (y 0).val, by omega⟩
    (xblk V c t _ _ _ rfl) (bblk V c t 0 _)

/-- An index of the result is in point t's block iff its row is among the block's rows. -/
theorem mem_blk (t : Fin cfg1.N) (i : S100000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v48).slice (win1_2.rect t)).set ↔ _
  rw [View.set_slice_whole, Rect.mem_set_unit]
  exact Iff.rfl

/-- Every block index below 5 is some point's. -/
theorem onto : ∀ q : Fin 5, ∃ t : Fin cfg1.N, t.val = q.val :=
  (by decide +kernel : ∀ q : Fin 5, ∃ t : Fin grid1.N, t.val = q.val)

/-- The five row blocks cover the result: row r is in block r / 20000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := onto ⟨(i 0).val / 20000, by omega⟩
  have ht' : t.val = (i 0).val / 20000 := ht
  obtain ⟨-, -, -, -, e4, e5⟩ := idx t
  refine ⟨t, flush1_2 t, ?_⟩
  rw [mem_blk]
  intro a
  match a with
  | ⟨0, _⟩ => show win1_2.index t 0 * 20000 ≤ (i 0).val ∧ (i 0).val < win1_2.index t 0 * 20000 + 20000; rw [e4, ht']; omega
  | ⟨1, _⟩ => show win1_2.index t 1 * 64 ≤ (i 1).val ∧ (i 1).val < win1_2.index t 1 * 64 + 64; rw [e5]; omega

/-- The result array after the region: max (x + b) 0 of the arrays the region found. -/
theorem value (c : Dev nD) : (dat1 V c).arrAt 2 cfg1.N
    = biasRelu (V c main_v46 : S100000x64.Idx → EReal) (V c main_v47 : S1x64.Idx → EReal) :=
  (dat1 V c).arrAt_eq_of_cover 2 _ (fun t _ => flushed_eq V c t) cover

end Cert.KernelIdeal.Reg1

end
-- ==== Proof.Region2.lean ====
/-
  The second projection: the 100000 hidden rows against a [64, 64] weight.
  The pipeline walks the 100000 rows in 5 blocks of 20000; at point t it fetches rows 20000·t … 20000·t + 19999 of the
  array and the whole weight, stores x · wᵀ of the block, and writes it back to the same rows of the result.  The five
  blocks cover the result, which therefore ends as x · wᵀ of the whole array — whatever the region finds in its
  buffers on entry (`V`).
-/
import proofs.«177845_j65317862637644_1_alg».proof.Proof.Gen.KernelIdeal.Frame
import proofs.«177845_j65317862637644_1_alg».proof.Proof.LinearKernel

set_option maxRecDepth 16384

noncomputable section

namespace Cert.KernelIdeal.Reg2

open Cert.KernelIdeal Cert.KernelIdeal.Gen Cert.GCN
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the array's and the result's row block is the point, the weight's block is
    the whole weight. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p, column j of point t's array block is row 20000·t + p, column j of the array. -/
theorem xblk (c : Dev nD) (t : Fin cfg2.N) (p : Fin 20000) (j : Fin 64) (r : Fin 100000) (hr : r.val = 20000 * t.val + p.val) :
    (iblk2 V c 0 t : Vec Ideal S20000x64 .f32) (ix2 p j) = (V c main_v48 : S100000x64.Idx → EReal) (ix2 r j) := by
  obtain ⟨e0, e1, -, -, -, -⟩ := idx t
  unfold iblk2
  rw [View.read_apply]
  show V c main_v48 _ = V c main_v48 _
  congr 1
  funext a
  apply Fin.ext
  match a with
  | ⟨0, _⟩ => show win2_0.index t 0 * 20000 + 1 * p.val = r.val; rw [e0, hr]; omega
  | ⟨1, _⟩ => show win2_0.index t 1 * 64 + 1 * j.val = j.val; rw [e1]; omega

/-- The weight's block is the weight. -/
theorem wblk (c : Dev nD) (t : Fin cfg2.N) (q : Fin 64) (j : Fin 64) :
    (iblk2 V c 1 t : Vec Ideal S64x64 .f32) (ix2 q j) = (V c main_arg3 : S64x64.Idx → EReal) (ix2 q j) := by
  obtain ⟨-, -, e2, e3, -, -⟩ := idx t
  unfold iblk2
  rw [View.read_apply]
  show V c main_arg3 _ = V c main_arg3 _
  congr 1
  funext a
  apply Fin.ext
  match a with
  | ⟨0, _⟩ => show win2_1.index t 0 * 64 + 1 * q.val = q.val; rw [e2]; omega
  | ⟨1, _⟩ => show win2_1.index t 1 * 64 + 1 * j.val = j.val; rw [e3]; omega

/-- What point t writes back is block t of x · wᵀ of the arrays as the region finds them. -/
theorem flushed_eq (c : Dev nD) (t : Fin cfg2.N) :
    (dat2 V c).flushed 2 t = ((cfg2.win 2).blk t).view.read (Elt Ideal)
      (linear (V c main_v48 : S100000x64.Idx → EReal) (V c main_arg3 : S64x64.Idx → EReal)) := by
  show (cfg2.win 2).cut (grid2.coords t) ((dat2 V c).after 2 t) = _
  rw [after2_2]
  unfold out2_2
  rw [View.canon_unit_zero hz]
  simp only [View.ld_unit_zero (S := S20000x64) hz, View.ld_unit_zero (S := S64x64) hz]
  rw [Ker.pay_hid]
  obtain ⟨-, -, -, -, e4, e5⟩ := idx t
  funext y
  rw [View.read_apply]
  have hy0 : (y 0).val < 20000 := (y 0).isLt
  have hy1 : (y 1).val < 64 := (y 1).isLt
  have ht : t.val < 5 := Nat.lt_of_lt_of_eq t.isLt N_2
  have hemb : ((cfg2.win 2).blk t).view.emb y = ix2 (⟨20000 * t.val + (y 0).val, by omega⟩ : Fin 100000) (⟨(y 1).val, hy1⟩ : Fin 64) := by
    funext a
    apply Fin.ext
    match a with
    | ⟨0, _⟩ => show win2_2.index t 0 * 20000 + 1 * (y 0).val = 20000 * t.val + (y 0).val; rw [e4]; omega
    | ⟨1, _⟩ => show win2_2.index t 1 * 64 + 1 * (y 1).val = (y 1).val; rw [e5]; omega
  rw [hemb]
  show linear (iblk2 V c 0 t : Vec Ideal S20000x64 .f32) (iblk2 V c 1 t : Vec Ideal S64x64 .f32) (ix2 (⟨(y 0).val, hy0⟩ : Fin 20000) (⟨(y 1).val, hy1⟩ : Fin 64)) = _
  rw [linear_apply, linear_apply]
  exact Finset.sum_congr rfl fun j _ => by
    rw [xblk V c t ⟨(y 0).val, hy0⟩ j ⟨20000 * t.val + (y 0).val, by omega⟩ rfl, wblk V c t ⟨(y 1).val, hy1⟩ j]

/-- An index of the result is in point t's block iff its row is among the block's rows. -/
theorem mem_blk (t : Fin cfg2.N) (i : S100000x64.Idx) :
    i ∈ ((cfg2.win 2).blk t).view.set ↔ ∀ a : Fin 2, win2_2.index t a * S20000x64.size a ≤ (i a).val ∧ (i a).val < win2_2.index t a * S20000x64.size a + S20000x64.size a := by
  show i ∈ ((View.whole main_v49).slice (win2_2.rect t)).set ↔ _
  rw [View.set_slice_whole, Rect.mem_set_unit]
  exact Iff.rfl

/-- Every block index below 5 is some point's. -/
theorem onto : ∀ q : Fin 5, ∃ t : Fin cfg2.N, t.val = q.val :=
  (by decide +kernel : ∀ q : Fin 5, ∃ t : Fin grid2.N, t.val = q.val)

/-- The five row blocks cover the result: row r is in block r / 20000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := onto ⟨(i 0).val / 20000, by omega⟩
  have ht' : t.val = (i 0).val / 20000 := ht
  obtain ⟨-, -, -, -, e4, e5⟩ := idx t
  refine ⟨t, flush2_2 t, ?_⟩
  rw [mem_blk]
  intro a
  match a with
  | ⟨0, _⟩ => show win2_2.index t 0 * 20000 ≤ (i 0).val ∧ (i 0).val < win2_2.index t 0 * 20000 + 20000; rw [e4, ht']; omega
  | ⟨1, _⟩ => show win2_2.index t 1 * 64 ≤ (i 1).val ∧ (i 1).val < win2_2.index t 1 * 64 + 64; rw [e5]; omega

/-- The result array after the region: x · wᵀ of the arrays the region found. -/
theorem value (c : Dev nD) : (dat2 V c).arrAt 2 cfg2.N
    = linear (V c main_v48 : S100000x64.Idx → EReal) (V c main_arg3 : S64x64.Idx → EReal) :=
  (dat2 V c).arrAt_eq_of_cover 2 _ (fun t _ => flushed_eq V c t) cover

end Cert.KernelIdeal.Reg2

end
-- ==== Proof.Region3.lean ====
/-
  The second layer's bias and positive part on the aggregated rows.
  The pipeline walks the 100000 rows in 5 blocks of 20000; at point t it fetches rows 20000·t … 20000·t + 19999 of the
  aggregated array and the whole [1, 64] bias row, stores max (x + b) 0 of the block, and writes it back to the same
  rows of the result.  The five blocks cover the result, which therefore ends as max (x + b) 0 of the whole array —
  whatever the region finds in its buffers on entry (`V`).
-/
import proofs.«177845_j65317862637644_1_alg».proof.Proof.Gen.KernelIdeal.Frame
import proofs.«177845_j65317862637644_1_alg».proof.Proof.BiasRelu

set_option maxRecDepth 16384

noncomputable section

namespace Cert.KernelIdeal.Reg3

open Cert.KernelIdeal Cert.KernelIdeal.Gen Cert.GCN
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the array's and the result's row block is the point, the bias row's block
    is the whole row. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p, column q of point t's array block is row 20000·t + p, column q of the array. -/
theorem xblk (c : Dev nD) (t : Fin cfg3.N) (p : Fin 20000) (q : Fin 64) (r : Fin 100000) (hr : r.val = 20000 * t.val + p.val) :
    (iblk3 V c 0 t : Vec Ideal S20000x64 .f32) (ix2 p q) = (V c main_v62 : S100000x64.Idx → EReal) (ix2 r q) := by
  obtain ⟨e0, e1, -, -, -, -⟩ := idx t
  unfold iblk3
  rw [View.read_apply]
  show V c main_v62 _ = V c main_v62 _
  congr 1
  funext a
  apply Fin.ext
  match a with
  | ⟨0, _⟩ => show win3_0.index t 0 * 20000 + 1 * p.val = r.val; rw [e0, hr]; omega
  | ⟨1, _⟩ => show win3_0.index t 1 * 64 + 1 * q.val = q.val; rw [e1]; omega

/-- The bias row's block is the bias row. -/
theorem bblk (c : Dev nD) (t : Fin cfg3.N) (u : Fin 1) (q : Fin 64) :
    (iblk3 V c 1 t : Vec Ideal S1x64 .f32) (ix2 u q) = (V c main_v63 : S1x64.Idx → EReal) (ix2 u q) := by
  obtain ⟨-, -, e2, e3, -, -⟩ := idx t
  unfold iblk3
  rw [View.read_apply]
  show V c main_v63 _ = V c main_v63 _
  congr 1
  funext a
  apply Fin.ext
  match a with
  | ⟨0, _⟩ => show win3_1.index t 0 * 1 + 1 * u.val = u.val; rw [e2]; omega
  | ⟨1, _⟩ => show win3_1.index t 1 * 64 + 1 * q.val = q.val; rw [e3]; omega

/-- max (x + b) 0 at an entry depends on the entry of x and on the bias of its column only. -/
theorem block_row {n N o : Nat} (xb : (⟨2, ![n, o]⟩ : Shape).Idx → EReal) (bb : (⟨2, ![1, o]⟩ : Shape).Idx → EReal)
    (X : (⟨2, ![N, o]⟩ : Shape).Idx → EReal) (B : (⟨2, ![1, o]⟩ : Shape).Idx → EReal) (p : Fin n) (q : Fin o) (r : Fin N)
    (hx : xb (ix2 p q) = X (ix2 r q)) (hb : bb (ix2 0 q) = B (ix2 0 q)) :
    biasRelu xb bb (ix2 p q) = biasRelu X B (ix2 r q) := by
  show max (xb (ix2 p q) + bb (ix2 0 q)) _ = max (X (ix2 r q) + B (ix2 0 q)) _
  rw [hx, hb]

/-- What point t writes back is block t of max (x + b) 0 of the arrays as the region finds them. -/
theorem flushed_eq (c : Dev nD) (t : Fin cfg3.N) :
    (dat3 V c).flushed 2 t = ((cfg3.win 2).blk t).view.read (Elt Ideal)
      (biasRelu (V c main_v62 : S100000x64.Idx → EReal) (V c main_v63 : S1x64.Idx → EReal)) := by
  show (cfg3.win 2).cut (grid3.coords t) ((dat3 V c).after 2 t) = _
  rw [after3_2]
  unfold out3_2
  rw [View.canon_unit_zero hz]
  simp only [View.ld_unit_zero (S := S20000x64) hz, View.ld_unit_zero (S := S1x64) hz]
  rw [Ker.pay_bias2]
  obtain ⟨-, -, -, -, e4, e5⟩ := idx t
  funext y
  rw [View.read_apply]
  have hy0 : (y 0).val < 20000 := (y 0).isLt
  have hy1 : (y 1).val < 64 := (y 1).isLt
  have ht : t.val < 5 := Nat.lt_of_lt_of_eq t.isLt N_3
  have hemb : ((cfg3.win 2).blk t).view.emb y = ix2 (⟨20000 * t.val + (y 0).val, by omega⟩ : Fin 100000) (⟨(y 1).val, hy1⟩ : Fin 64) := by
    funext a
    apply Fin.ext
    match a with
    | ⟨0, _⟩ => show win3_2.index t 0 * 20000 + 1 * (y 0).val = 20000 * t.val + (y 0).val; rw [e4]; omega
    | ⟨1, _⟩ => show win3_2.index t 1 * 64 + 1 * (y 1).val = (y 1).val; rw [e5]; omega
  rw [hemb]
  have hy : y = ix2 (⟨(y 0).val, hy0⟩ : Fin 20000) (⟨(y 1).val, hy1⟩ : Fin 64) := funext fun a => by
    match a with
    | ⟨0, _⟩ => rfl
    | ⟨1, _⟩ => rfl
  refine (congrArg (biasRelu (iblk3 V c 0 t : Vec Ideal S20000x64 .f32) (iblk3 V c 1 t : Vec Ideal S1x64 .f32)) hy).trans ?_
  exact block_row _ _ _ _ ⟨(y 0).val, hy0⟩ ⟨(y 1).val, hy1⟩ ⟨20000 * t.val + (y 0).val, by omega⟩
    (xblk V c t _ _ _ rfl) (bblk V c t 0 _)

/-- An index of the result is in point t's block iff its row is among the block's rows. -/
theorem mem_blk (t : Fin cfg3.N) (i : S100000x64.Idx) :
    i ∈ ((cfg3.win 2).blk t).view.set ↔ ∀ a : Fin 2, win3_2.index t a * S20000x64.size a ≤ (i a).val ∧ (i a).val < win3_2.index t a * S20000x64.size a + S20000x64.size a := by
  show i ∈ ((View.whole main_v64).slice (win3_2.rect t)).set ↔ _
  rw [View.set_slice_whole, Rect.mem_set_unit]
  exact Iff.rfl

/-- Every block index below 5 is some point's. -/
theorem onto : ∀ q : Fin 5, ∃ t : Fin cfg3.N, t.val = q.val :=
  (by decide +kernel : ∀ q : Fin 5, ∃ t : Fin grid3.N, t.val = q.val)

/-- The five row blocks cover the result: row r is in block r / 20000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := onto ⟨(i 0).val / 20000, by omega⟩
  have ht' : t.val = (i 0).val / 20000 := ht
  obtain ⟨-, -, -, -, e4, e5⟩ := idx t
  refine ⟨t, flush3_2 t, ?_⟩
  rw [mem_blk]
  intro a
  match a with
  | ⟨0, _⟩ => show win3_2.index t 0 * 20000 ≤ (i 0).val ∧ (i 0).val < win3_2.index t 0 * 20000 + 20000; rw [e4, ht']; omega
  | ⟨1, _⟩ => show win3_2.index t 1 * 64 ≤ (i 1).val ∧ (i 1).val < win3_2.index t 1 * 64 + 64; rw [e5]; omega

/-- The result array after the region: max (x + b) 0 of the arrays the region found. -/
theorem value (c : Dev nD) : (dat3 V c).arrAt 2 cfg3.N
    = biasRelu (V c main_v62 : S100000x64.Idx → EReal) (V c main_v63 : S1x64.Idx → EReal) :=
  (dat3 V c).arrAt_eq_of_cover 2 _ (fun t _ => flushed_eq V c t) cover

end Cert.KernelIdeal.Reg3

end
-- ==== Proof.Region4.lean ====
/-
  The head kernel's pipeline has one grid point: every window's one block is its whole array, so the result array
  ends holding what the body stores — `head` of the six input arrays as the region finds them (`V`).
-/
import proofs.«177845_j65317862637644_1_alg».proof.Proof.Gen.KernelIdeal.Frame
import proofs.«177845_j65317862637644_1_alg».proof.Proof.Head

set_option maxRecDepth 16384

noncomputable section

namespace Cert.KernelIdeal.Reg4

open Cert.KernelIdeal Cert.KernelIdeal.Gen Cert.GCN
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block index is (0, 0) at the one point. -/
theorem idx : ∀ t : Fin cfg4.N, (win4_0.index t (0 : Fin 2) = 0 ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0) :=
  (by decide +kernel : ∀ t : Fin grid4.N, _)

/-- Window 0's one block is its whole array. -/
theorem blk0 (c : Dev nD) (t : Fin cfg4.N) : (iblk4 V c 0 t : Vec Ideal S128x64 .f32) = (V c main_v67 : S128x64.Idx → EReal) := by
  obtain ⟨e0, e1⟩ := (idx t).1
  funext y
  unfold iblk4
  rw [View.read_apply]
  show V c main_v67 _ = V c main_v67 _
  congr 1
  funext a
  apply Fin.ext
  match a with
  | ⟨0, _⟩ => show win4_0.index t 0 * 128 + 1 * (y 0).val = (y 0).val; rw [e0]; omega
  | ⟨1, _⟩ => show win4_0.index t 1 * 64 + 1 * (y 1).val = (y 1).val; rw [e1]; omega

/-- Window 1's one block is its whole array. -/
theorem blk1 (c : Dev nD) (t : Fin cfg4.N) : (iblk4 V c 1 t : Vec Ideal S128x1 .f32) = (V c main_v72 : S128x1.Idx → EReal) := by
  obtain ⟨e0, e1⟩ := (idx t).2.1
  funext y
  unfold iblk4
  rw [View.read_apply]
  show V c main_v72 _ = V c main_v72 _
  congr 1
  funext a
  apply Fin.ext
  match a with
  | ⟨0, _⟩ => show win4_1.index t 0 * 128 + 1 * (y 0).val = (y 0).val; rw [e0]; omega
  | ⟨1, _⟩ => show win4_1.index t 1 * 1 + 1 * (y 1).val = (y 1).val; rw [e1]; omega

/-- Window 2's one block is its whole array. -/
theorem blk2 (c : Dev nD) (t : Fin cfg4.N) : (iblk4 V c 2 t : Vec Ideal S64x64 .f32) = (V c main_arg5 : S64x64.Idx → EReal) := by
  obtain ⟨e0, e1⟩ := (idx t).2.2.1
  funext y
  unfold iblk4
  rw [View.read_apply]
  show V c main_arg5 _ = V c main_arg5 _
  congr 1
  funext a
  apply Fin.ext
  match a with
  | ⟨0, _⟩ => show win4_2.index t 0 * 64 + 1 * (y 0).val = (y 0).val; rw [e0]; omega
  | ⟨1, _⟩ => show win4_2.index t 1 * 64 + 1 * (y 1).val = (y 1).val; rw [e1]; omega

/-- Window 3's one block is its whole array. -/
theorem blk3 (c : Dev nD) (t : Fin cfg4.N) : (iblk4 V c 3 t : Vec Ideal S1x64 .f32) = (V c main_v73 : S1x64.Idx → EReal) := by
  obtain ⟨e0, e1⟩ := (idx t).2.2.2.1
  funext y
  unfold iblk4
  rw [View.read_apply]
  show V c main_v73 _ = V c main_v73 _
  congr 1
  funext a
  apply Fin.ext
  match a with
  | ⟨0, _⟩ => show win4_3.index t 0 * 1 + 1 * (y 0).val = (y 0).val; rw [e0]; omega
  | ⟨1, _⟩ => show win4_3.index t 1 * 64 + 1 * (y 1).val = (y 1).val; rw [e1]; omega

/-- Window 4's one block is its whole array. -/
theorem blk4 (c : Dev nD) (t : Fin cfg4.N) : (iblk4 V c 4 t : Vec Ideal S64x64 .f32) = (V c main_arg7 : S64x64.Idx → EReal) := by
  obtain ⟨e0, e1⟩ := (idx t).2.2.2.2.1
  funext y
  unfold iblk4
  rw [View.read_apply]
  show V c main_arg7 _ = V c main_arg7 _
  congr 1
  funext a
  apply Fin.ext
  match a with
  | ⟨0, _⟩ => show win4_4.index t 0 * 64 + 1 * (y 0).val = (y 0).val; rw [e0]; omega
  | ⟨1, _⟩ => show win4_4.index t 1 * 64 + 1 * (y 1).val = (y 1).val; rw [e1]; omega

/-- Window 5's one block is its whole array. -/
theorem blk5 (c : Dev nD) (t : Fin cfg4.N) : (iblk4 V c 5 t : Vec Ideal S1x64 .f32) = (V c main_v74 : S1x64.Idx → EReal) := by
  obtain ⟨e0, e1⟩ := (idx t).2.2.2.2.2.1
  funext y
  unfold iblk4
  rw [View.read_apply]
  show V c main_v74 _ = V c main_v74 _
  congr 1
  funext a
  apply Fin.ext
  match a with
  | ⟨0, _⟩ => show win4_5.index t 0 * 1 + 1 * (y 0).val = (y 0).val; rw [e0]; omega
  | ⟨1, _⟩ => show win4_5.index t 1 * 64 + 1 * (y 1).val = (y 1).val; rw [e1]; omega

set_option maxHeartbeats 2000000 in
/-- What the one point writes back is `head` of the arrays as the region finds them. -/
theorem flushed_eq (c : Dev nD) (t : Fin cfg4.N) :
    (dat4 V c).flushed 6 t = ((cfg4.win 6).blk t).view.read (Elt Ideal)
      (head (V c main_v67 : S128x64.Idx → EReal) (V c main_v72 : S128x1.Idx → EReal) (V c main_arg5 : S64x64.Idx → EReal)
        (V c main_v73 : S1x64.Idx → EReal) (V c main_arg7 : S64x64.Idx → EReal) (V c main_v74 : S1x64.Idx → EReal)) := by
  show (cfg4.win 6).cut (grid4.coords t) ((dat4 V c).after 6 t) = _
  rw [after4_6]
  unfold out4_6
  rw [View.canon_unit_zero hz]
  simp only [View.ld_unit_zero (S := S128x64) hz, View.ld_unit_zero (S := S128x1) hz, View.ld_unit_zero (S := S64x64) hz,
    View.ld_unit_zero (S := S1x64) hz]
  rw [Ker.pay_head, blk0 V c t, blk1 V c t, blk2 V c t, blk3 V c t, blk4 V c t, blk5 V c t]
  obtain ⟨e0, e1⟩ := (idx t).2.2.2.2.2.2
  funext y
  rw [View.read_apply]
  have hemb : ((cfg4.win 6).blk t).view.emb y = y := by
    funext a
    apply Fin.ext
    match a with
    | ⟨0, _⟩ => show win4_6.index t 0 * 128 + 1 * (y 0).val = (y 0).val; rw [e0]; omega
    | ⟨1, _⟩ => show win4_6.index t 1 * 64 + 1 * (y 1).val = (y 1).val; rw [e1]; omega
  rw [hemb]
  rfl

/-- An index of the result is in the point's block iff its coordinates are in the block's ranges. -/
theorem mem_blk (t : Fin cfg4.N) (i : S128x64.Idx) :
    i ∈ ((cfg4.win 6).blk t).view.set ↔ ∀ a : Fin 2, win4_6.index t a * S128x64.size a ≤ (i a).val ∧ (i a).val < win4_6.index t a * S128x64.size a + S128x64.size a := by
  show i ∈ ((View.whole main_v75).slice (win4_6.rect t)).set ↔ _
  rw [View.set_slice_whole, Rect.mem_set_unit]
  exact Iff.rfl

/-- The one block covers the result. -/
theorem cover (i : S128x64.Idx) : ∃ t : Fin cfg4.N, (cfg4.win 6).flush t = true ∧ i ∈ ((cfg4.win 6).blk t).view.set := by
  have hi0 : (i 0).val < 128 := (i 0).isLt
  have hi1 : (i 1).val < 64 := (i 1).isLt
  obtain ⟨e0, e1⟩ := (idx (t4_0 : Fin cfg4.N)).2.2.2.2.2.2
  refine ⟨t4_0, flush4_6 t4_0, ?_⟩
  rw [mem_blk]
  intro a
  match a with
  | ⟨0, _⟩ => show win4_6.index t4_0 0 * 128 ≤ (i 0).val ∧ (i 0).val < win4_6.index t4_0 0 * 128 + 128; rw [e0]; omega
  | ⟨1, _⟩ => show win4_6.index t4_0 1 * 64 ≤ (i 1).val ∧ (i 1).val < win4_6.index t4_0 1 * 64 + 64; rw [e1]; omega

/-- The result array after the region: `head` of the arrays the region found. -/
theorem value (c : Dev nD) : (dat4 V c).arrAt 6 cfg4.N
    = head (V c main_v67 : S128x64.Idx → EReal) (V c main_v72 : S128x1.Idx → EReal) (V c main_arg5 : S64x64.Idx → EReal)
        (V c main_v73 : S1x64.Idx → EReal) (V c main_arg7 : S64x64.Idx → EReal) (V c main_v74 : S1x64.Idx → EReal) :=
  (dat4 V c).arrAt_eq_of_cover 6 _ (fun t _ => flushed_eq V c t) cover

end Cert.KernelIdeal.Reg4

end
-- ==== Proof.Stages.lean ====
/-
  The kernel program's buffers at the boundaries of its segments, from the launch memory `m`: each is the reference's
  stage of the same arguments.  The argument arrays, and the edge lists and edge weights once built, pass every later
  segment untouched; each pipeline's result is the value proved for its region, of buffers that are already known to be
  the reference's earlier stages; each host stretch applies the shared host operations to them.  The last boundary's
  result buffer is the reference's result.
-/
import proofs.«177845_j65317862637644_1_alg».proof.Proof.Gen.KernelIdeal.Frame
import proofs.«177845_j65317862637644_1_alg».proof.Proof.HostKernel
import proofs.«177845_j65317862637644_1_alg».proof.Proof.RefStages
import proofs.«177845_j65317862637644_1_alg».proof.Proof.Region0
import proofs.«177845_j65317862637644_1_alg».proof.Proof.Region1
import proofs.«177845_j65317862637644_1_alg».proof.Proof.Region2
import proofs.«177845_j65317862637644_1_alg».proof.Proof.Region3
import proofs.«177845_j65317862637644_1_alg».proof.Proof.Region4

set_option maxRecDepth 16384

noncomputable section

namespace Cert.KernelIdeal.Val

open Cert.KernelIdeal Cert.KernelIdeal.Gen Cert.GCN
open Idealize.ShloMosaic Idealize.ShloMosaic.TcCoe Idealize.SL.Sem

variable (m : (ℓ : Loc nD τ sig) → Buf (Elt Ideal) ℓ) (ρ : Dev nD → PrngReg)

/-! ## The arguments pass every segment untouched -/

theorem k3_a1 (c : Dev nD) : W3 m ρ c (Proc.devRef .tc main_arg1) = (m ((c : Thread nD τ).loc main_arg1)) :=
  (Hst.pre_arg1 (W0 m ρ c)).trans rfl
theorem k3_a2 (c : Dev nD) : W3 m ρ c (Proc.devRef .tc main_arg2) = (m ((c : Thread nD τ).loc main_arg2)) :=
  (Hst.pre_arg2 (W0 m ρ c)).trans rfl
theorem k3_a3 (c : Dev nD) : W3 m ρ c (Proc.devRef .tc main_arg3) = (m ((c : Thread nD τ).loc main_arg3)) :=
  (Hst.pre_arg3 (W0 m ρ c)).trans rfl
theorem k3_a4 (c : Dev nD) : W3 m ρ c (Proc.devRef .tc main_arg4) = (m ((c : Thread nD τ).loc main_arg4)) :=
  (Hst.pre_arg4 (W0 m ρ c)).trans rfl
theorem k3_a5 (c : Dev nD) : W3 m ρ c (Proc.devRef .tc main_arg5) = (m ((c : Thread nD τ).loc main_arg5)) :=
  (Hst.pre_arg5 (W0 m ρ c)).trans rfl
theorem k3_a6 (c : Dev nD) : W3 m ρ c (Proc.devRef .tc main_arg6) = (m ((c : Thread nD τ).loc main_arg6)) :=
  (Hst.pre_arg6 (W0 m ρ c)).trans rfl
theorem k3_a7 (c : Dev nD) : W3 m ρ c (Proc.devRef .tc main_arg7) = (m ((c : Thread nD τ).loc main_arg7)) :=
  (Hst.pre_arg7 (W0 m ρ c)).trans rfl
theorem k3_a8 (c : Dev nD) : W3 m ρ c (Proc.devRef .tc main_arg8) = (m ((c : Thread nD τ).loc main_arg8)) :=
  (Hst.pre_arg8 (W0 m ρ c)).trans rfl
theorem k3_a10 (c : Dev nD) : W3 m ρ c (Proc.devRef .tc main_arg10) = (m ((c : Thread nD τ).loc main_arg10)) :=
  (Hst.pre_arg10 (W0 m ρ c)).trans rfl
theorem k4_a2 (c : Dev nD) : W4 m ρ c (Proc.devRef .tc main_arg2) = (m ((c : Thread nD τ).loc main_arg2)) :=
  (W4_of_ne m ρ c main_arg2 (by decide)).trans (k3_a2 m ρ c)
theorem k4_a3 (c : Dev nD) : W4 m ρ c (Proc.devRef .tc main_arg3) = (m ((c : Thread nD τ).loc main_arg3)) :=
  (W4_of_ne m ρ c main_arg3 (by decide)).trans (k3_a3 m ρ c)
theorem k4_a4 (c : Dev nD) : W4 m ρ c (Proc.devRef .tc main_arg4) = (m ((c : Thread nD τ).loc main_arg4)) :=
  (W4_of_ne m ρ c main_arg4 (by decide)).trans (k3_a4 m ρ c)
theorem k4_a5 (c : Dev nD) : W4 m ρ c (Proc.devRef .tc main_arg5) = (m ((c : Thread nD τ).loc main_arg5)) :=
  (W4_of_ne m ρ c main_arg5 (by decide)).trans (k3_a5 m ρ c)
theorem k4_a6 (c : Dev nD) : W4 m ρ c (Proc.devRef .tc main_arg6) = (m ((c : Thread nD τ).loc main_arg6)) :=
  (W4_of_ne m ρ c main_arg6 (by decide)).trans (k3_a6 m ρ c)
theorem k4_a7 (c : Dev nD) : W4 m ρ c (Proc.devRef .tc main_arg7) = (m ((c : Thread nD τ).loc main_arg7)) :=
  (W4_of_ne m ρ c main_arg7 (by decide)).trans (k3_a7 m ρ c)
theorem k4_a8 (c : Dev nD) : W4 m ρ c (Proc.devRef .tc main_arg8) = (m ((c : Thread nD τ).loc main_arg8)) :=
  (W4_of_ne m ρ c main_arg8 (by decide)).trans (k3_a8 m ρ c)
theorem k4_a10 (c : Dev nD) : W4 m ρ c (Proc.devRef .tc main_arg10) = (m ((c : Thread nD τ).loc main_arg10)) :=
  (W4_of_ne m ρ c main_arg10 (by decide)).trans (k3_a10 m ρ c)
theorem k5_a3 (c : Dev nD) : W5 m ρ c (Proc.devRef .tc main_arg3) = (m ((c : Thread nD τ).loc main_arg3)) :=
  (Hst.h1_arg3 (W4 m ρ c)).trans (k4_a3 m ρ c)
theorem k5_a4 (c : Dev nD) : W5 m ρ c (Proc.devRef .tc main_arg4) = (m ((c : Thread nD τ).loc main_arg4)) :=
  (Hst.h1_arg4 (W4 m ρ c)).trans (k4_a4 m ρ c)
theorem k5_a5 (c : Dev nD) : W5 m ρ c (Proc.devRef .tc main_arg5) = (m ((c : Thread nD τ).loc main_arg5)) :=
  (Hst.h1_arg5 (W4 m ρ c)).trans (k4_a5 m ρ c)
theorem k5_a6 (c : Dev nD) : W5 m ρ c (Proc.devRef .tc main_arg6) = (m ((c : Thread nD τ).loc main_arg6)) :=
  (Hst.h1_arg6 (W4 m ρ c)).trans (k4_a6 m ρ c)
theorem k5_a7 (c : Dev nD) : W5 m ρ c (Proc.devRef .tc main_arg7) = (m ((c : Thread nD τ).loc main_arg7)) :=
  (Hst.h1_arg7 (W4 m ρ c)).trans (k4_a7 m ρ c)
theorem k5_a8 (c : Dev nD) : W5 m ρ c (Proc.devRef .tc main_arg8) = (m ((c : Thread nD τ).loc main_arg8)) :=
  (Hst.h1_arg8 (W4 m ρ c)).trans (k4_a8 m ρ c)
theorem k5_a10 (c : Dev nD) : W5 m ρ c (Proc.devRef .tc main_arg10) = (m ((c : Thread nD τ).loc main_arg10)) :=
  (Hst.h1_arg10 (W4 m ρ c)).trans (k4_a10 m ρ c)
theorem k6_a3 (c : Dev nD) : W6 m ρ c (Proc.devRef .tc main_arg3) = (m ((c : Thread nD τ).loc main_arg3)) :=
  (W6_of_ne m ρ c main_arg3 (by decide)).trans (k5_a3 m ρ c)
theorem k6_a4 (c : Dev nD) : W6 m ρ c (Proc.devRef .tc main_arg4) = (m ((c : Thread nD τ).loc main_arg4)) :=
  (W6_of_ne m ρ c main_arg4 (by decide)).trans (k5_a4 m ρ c)
theorem k6_a5 (c : Dev nD) : W6 m ρ c (Proc.devRef .tc main_arg5) = (m ((c : Thread nD τ).loc main_arg5)) :=
  (W6_of_ne m ρ c main_arg5 (by decide)).trans (k5_a5 m ρ c)
theorem k6_a6 (c : Dev nD) : W6 m ρ c (Proc.devRef .tc main_arg6) = (m ((c : Thread nD τ).loc main_arg6)) :=
  (W6_of_ne m ρ c main_arg6 (by decide)).trans (k5_a6 m ρ c)
theorem k6_a7 (c : Dev nD) : W6 m ρ c (Proc.devRef .tc main_arg7) = (m ((c : Thread nD τ).loc main_arg7)) :=
  (W6_of_ne m ρ c main_arg7 (by decide)).trans (k5_a7 m ρ c)
theorem k6_a8 (c : Dev nD) : W6 m ρ c (Proc.devRef .tc main_arg8) = (m ((c : Thread nD τ).loc main_arg8)) :=
  (W6_of_ne m ρ c main_arg8 (by decide)).trans (k5_a8 m ρ c)
theorem k6_a10 (c : Dev nD) : W6 m ρ c (Proc.devRef .tc main_arg10) = (m ((c : Thread nD τ).loc main_arg10)) :=
  (W6_of_ne m ρ c main_arg10 (by decide)).trans (k5_a10 m ρ c)
theorem k7_a4 (c : Dev nD) : W7 m ρ c (Proc.devRef .tc main_arg4) = (m ((c : Thread nD τ).loc main_arg4)) :=
  (W7_of_ne m ρ c main_arg4 (by decide)).trans (k6_a4 m ρ c)
theorem k7_a5 (c : Dev nD) : W7 m ρ c (Proc.devRef .tc main_arg5) = (m ((c : Thread nD τ).loc main_arg5)) :=
  (W7_of_ne m ρ c main_arg5 (by decide)).trans (k6_a5 m ρ c)
theorem k7_a6 (c : Dev nD) : W7 m ρ c (Proc.devRef .tc main_arg6) = (m ((c : Thread nD τ).loc main_arg6)) :=
  (W7_of_ne m ρ c main_arg6 (by decide)).trans (k6_a6 m ρ c)
theorem k7_a7 (c : Dev nD) : W7 m ρ c (Proc.devRef .tc main_arg7) = (m ((c : Thread nD τ).loc main_arg7)) :=
  (W7_of_ne m ρ c main_arg7 (by decide)).trans (k6_a7 m ρ c)
theorem k7_a8 (c : Dev nD) : W7 m ρ c (Proc.devRef .tc main_arg8) = (m ((c : Thread nD τ).loc main_arg8)) :=
  (W7_of_ne m ρ c main_arg8 (by decide)).trans (k6_a8 m ρ c)
theorem k7_a10 (c : Dev nD) : W7 m ρ c (Proc.devRef .tc main_arg10) = (m ((c : Thread nD τ).loc main_arg10)) :=
  (W7_of_ne m ρ c main_arg10 (by decide)).trans (k6_a10 m ρ c)
theorem k8_a5 (c : Dev nD) : W8 m ρ c (Proc.devRef .tc main_arg5) = (m ((c : Thread nD τ).loc main_arg5)) :=
  (Hst.h3_arg5 (W7 m ρ c)).trans (k7_a5 m ρ c)
theorem k8_a6 (c : Dev nD) : W8 m ρ c (Proc.devRef .tc main_arg6) = (m ((c : Thread nD τ).loc main_arg6)) :=
  (Hst.h3_arg6 (W7 m ρ c)).trans (k7_a6 m ρ c)
theorem k8_a7 (c : Dev nD) : W8 m ρ c (Proc.devRef .tc main_arg7) = (m ((c : Thread nD τ).loc main_arg7)) :=
  (Hst.h3_arg7 (W7 m ρ c)).trans (k7_a7 m ρ c)
theorem k8_a8 (c : Dev nD) : W8 m ρ c (Proc.devRef .tc main_arg8) = (m ((c : Thread nD τ).loc main_arg8)) :=
  (Hst.h3_arg8 (W7 m ρ c)).trans (k7_a8 m ρ c)
theorem k8_a10 (c : Dev nD) : W8 m ρ c (Proc.devRef .tc main_arg10) = (m ((c : Thread nD τ).loc main_arg10)) :=
  (Hst.h3_arg10 (W7 m ρ c)).trans (k7_a10 m ρ c)
theorem k9_a5 (c : Dev nD) : W9 m ρ c (Proc.devRef .tc main_arg5) = (m ((c : Thread nD τ).loc main_arg5)) :=
  (W9_of_ne m ρ c main_arg5 (by decide)).trans (k8_a5 m ρ c)
theorem k9_a6 (c : Dev nD) : W9 m ρ c (Proc.devRef .tc main_arg6) = (m ((c : Thread nD τ).loc main_arg6)) :=
  (W9_of_ne m ρ c main_arg6 (by decide)).trans (k8_a6 m ρ c)
theorem k9_a7 (c : Dev nD) : W9 m ρ c (Proc.devRef .tc main_arg7) = (m ((c : Thread nD τ).loc main_arg7)) :=
  (W9_of_ne m ρ c main_arg7 (by decide)).trans (k8_a7 m ρ c)
theorem k9_a8 (c : Dev nD) : W9 m ρ c (Proc.devRef .tc main_arg8) = (m ((c : Thread nD τ).loc main_arg8)) :=
  (W9_of_ne m ρ c main_arg8 (by decide)).trans (k8_a8 m ρ c)
theorem k9_a10 (c : Dev nD) : W9 m ρ c (Proc.devRef .tc main_arg10) = (m ((c : Thread nD τ).loc main_arg10)) :=
  (W9_of_ne m ρ c main_arg10 (by decide)).trans (k8_a10 m ρ c)
theorem k10_a5 (c : Dev nD) : W10 m ρ c (Proc.devRef .tc main_arg5) = (m ((c : Thread nD τ).loc main_arg5)) :=
  (Hst.h4_arg5 (W9 m ρ c)).trans (k9_a5 m ρ c)
theorem k10_a7 (c : Dev nD) : W10 m ρ c (Proc.devRef .tc main_arg7) = (m ((c : Thread nD τ).loc main_arg7)) :=
  (Hst.h4_arg7 (W9 m ρ c)).trans (k9_a7 m ρ c)

/-! ## So do the edge lists and the edge weights, once built -/

theorem e3_v6 (c : Dev nD) : W3 m ρ c (Proc.devRef .tc main_v6) = Cert.ReferenceIdeal.Read.val_main_v6 (F := Ideal) (m ((c : Thread nD τ).loc main_arg9)) :=
  (Hst.pre_v6 (W0 m ρ c)).trans rfl
theorem e4_v6 (c : Dev nD) : W4 m ρ c (Proc.devRef .tc main_v6) = Cert.ReferenceIdeal.Read.val_main_v6 (F := Ideal) (m ((c : Thread nD τ).loc main_arg9)) :=
  (W4_of_ne m ρ c main_v6 (by decide)).trans (e3_v6 m ρ c)
theorem e5_v6 (c : Dev nD) : W5 m ρ c (Proc.devRef .tc main_v6) = Cert.ReferenceIdeal.Read.val_main_v6 (F := Ideal) (m ((c : Thread nD τ).loc main_arg9)) :=
  (Hst.h1_v6 (W4 m ρ c)).trans (e4_v6 m ρ c)
theorem e6_v6 (c : Dev nD) : W6 m ρ c (Proc.devRef .tc main_v6) = Cert.ReferenceIdeal.Read.val_main_v6 (F := Ideal) (m ((c : Thread nD τ).loc main_arg9)) :=
  (W6_of_ne m ρ c main_v6 (by decide)).trans (e5_v6 m ρ c)
theorem e7_v6 (c : Dev nD) : W7 m ρ c (Proc.devRef .tc main_v6) = Cert.ReferenceIdeal.Read.val_main_v6 (F := Ideal) (m ((c : Thread nD τ).loc main_arg9)) :=
  (W7_of_ne m ρ c main_v6 (by decide)).trans (e6_v6 m ρ c)
theorem e3_v7 (c : Dev nD) : W3 m ρ c (Proc.devRef .tc main_v7) = Cert.ReferenceIdeal.Read.val_main_v7 (F := Ideal) (m ((c : Thread nD τ).loc main_arg9)) :=
  (Hst.pre_v7 (W0 m ρ c)).trans rfl
theorem e4_v7 (c : Dev nD) : W4 m ρ c (Proc.devRef .tc main_v7) = Cert.ReferenceIdeal.Read.val_main_v7 (F := Ideal) (m ((c : Thread nD τ).loc main_arg9)) :=
  (W4_of_ne m ρ c main_v7 (by decide)).trans (e3_v7 m ρ c)
theorem e5_v7 (c : Dev nD) : W5 m ρ c (Proc.devRef .tc main_v7) = Cert.ReferenceIdeal.Read.val_main_v7 (F := Ideal) (m ((c : Thread nD τ).loc main_arg9)) :=
  (Hst.h1_v7 (W4 m ρ c)).trans (e4_v7 m ρ c)
theorem e6_v7 (c : Dev nD) : W6 m ρ c (Proc.devRef .tc main_v7) = Cert.ReferenceIdeal.Read.val_main_v7 (F := Ideal) (m ((c : Thread nD τ).loc main_arg9)) :=
  (W6_of_ne m ρ c main_v7 (by decide)).trans (e5_v7 m ρ c)
theorem e7_v7 (c : Dev nD) : W7 m ρ c (Proc.devRef .tc main_v7) = Cert.ReferenceIdeal.Read.val_main_v7 (F := Ideal) (m ((c : Thread nD τ).loc main_arg9)) :=
  (W7_of_ne m ρ c main_v7 (by decide)).trans (e6_v7 m ρ c)
theorem e3_v32 (c : Dev nD) : W3 m ρ c (Proc.devRef .tc main_v32) = Cert.ReferenceIdeal.Read.val_main_v32 (F := Ideal) (m ((c : Thread nD τ).loc main_arg9)) :=
  (Hst.pre_v32 (W0 m ρ c)).trans rfl
theorem e4_v32 (c : Dev nD) : W4 m ρ c (Proc.devRef .tc main_v32) = Cert.ReferenceIdeal.Read.val_main_v32 (F := Ideal) (m ((c : Thread nD τ).loc main_arg9)) :=
  (W4_of_ne m ρ c main_v32 (by decide)).trans (e3_v32 m ρ c)
theorem e5_v32 (c : Dev nD) : W5 m ρ c (Proc.devRef .tc main_v32) = Cert.ReferenceIdeal.Read.val_main_v32 (F := Ideal) (m ((c : Thread nD τ).loc main_arg9)) :=
  (Hst.h1_v32 (W4 m ρ c)).trans (e4_v32 m ρ c)
theorem e6_v32 (c : Dev nD) : W6 m ρ c (Proc.devRef .tc main_v32) = Cert.ReferenceIdeal.Read.val_main_v32 (F := Ideal) (m ((c : Thread nD τ).loc main_arg9)) :=
  (W6_of_ne m ρ c main_v32 (by decide)).trans (e5_v32 m ρ c)
theorem e7_v32 (c : Dev nD) : W7 m ρ c (Proc.devRef .tc main_v32) = Cert.ReferenceIdeal.Read.val_main_v32 (F := Ideal) (m ((c : Thread nD τ).loc main_arg9)) :=
  (W7_of_ne m ρ c main_v32 (by decide)).trans (e6_v32 m ρ c)

/-! ## The stages -/

/-- The sliced features at the first pipeline's entry. -/
theorem s3_v0 (c : Dev nD) : W3 m ρ c (Proc.devRef .tc main_v0) = Cert.ReferenceIdeal.Read.val_main_v0 (F := Ideal) (m ((c : Thread nD τ).loc main_arg0)) :=
  (Hst.pre_v0 (W0 m ρ c)).trans rfl

/-- The first projection. -/
theorem s4_v33 (c : Dev nD) : W4 m ρ c (Proc.devRef .tc main_v33) = Cert.ReferenceIdeal.Read.val_main_v34 (F := Ideal) (m ((c : Thread nD τ).loc main_arg0)) (m ((c : Thread nD τ).loc main_arg1)) := by
  refine (W4_arr m ρ c 2).trans ?_
  refine (Reg0.value (V3 m ρ) c).trans ?_
  show linear (W3 m ρ c (Proc.devRef .tc main_v0)) (W3 m ρ c (Proc.devRef .tc main_arg1)) = _
  rw [s3_v0, k3_a1, Ref.lin1]

/-- The first aggregation. -/
theorem s5_v46 (c : Dev nD) : W5 m ρ c (Proc.devRef .tc main_v46) = Cert.ReferenceIdeal.Read.val_main_v47 (F := Ideal) (m ((c : Thread nD τ).loc main_arg0)) (m ((c : Thread nD τ).loc main_arg1)) (m ((c : Thread nD τ).loc main_arg9)) := by
  refine (Hst.h1_v46 (W4 m ρ c)).trans ?_
  rw [s4_v33, e4_v6, e4_v7, e4_v32, Ref.agg1]

/-- The first bias as a row. -/
theorem s5_v47 (c : Dev nD) : W5 m ρ c (Proc.devRef .tc main_v47) = shapeCast S1x64 (m ((c : Thread nD τ).loc main_arg2)) shapeCasts_S64_S1x64 := by
  refine (Hst.h1_v47 (W4 m ρ c)).trans ?_
  rw [k4_a2]

/-- The first layer's output. -/
theorem s6_v48 (c : Dev nD) : W6 m ρ c (Proc.devRef .tc main_v48)
    = Cert.ReferenceIdeal.Read.val_main_v51 (F := Ideal) (m ((c : Thread nD τ).loc main_arg0)) (m ((c : Thread nD τ).loc main_arg1)) (m ((c : Thread nD τ).loc main_arg2)) (m ((c : Thread nD τ).loc main_arg9)) := by
  refine (W6_arr m ρ c 2).trans ?_
  refine (Reg1.value (V5 m ρ) c).trans ?_
  show biasRelu (W5 m ρ c (Proc.devRef .tc main_v46)) (W5 m ρ c (Proc.devRef .tc main_v47)) = _
  rw [s5_v46, s5_v47, Ref.relu1 _ _ _ _ shapeCasts_S64_S1x64]

/-- The second projection. -/
theorem s7_v49 (c : Dev nD) : W7 m ρ c (Proc.devRef .tc main_v49)
    = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg9)) := by
  refine (W7_arr m ρ c 2).trans ?_
  refine (Reg2.value (V6 m ρ) c).trans ?_
  show linear (W6 m ρ c (Proc.devRef .tc main_v48)) (W6 m ρ c (Proc.devRef .tc main_arg3)) = _
  rw [s6_v48, k6_a3, Ref.lin2]

/-- The second aggregation. -/
theorem s8_v62 (c : Dev nD) : W8 m ρ c (Proc.devRef .tc main_v62)
    = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg9)) := by
  refine (Hst.h3_v62 (W7 m ρ c)).trans ?_
  rw [s7_v49, e7_v6, e7_v7, e7_v32, Ref.agg2]

/-- The second bias as a row. -/
theorem s8_v63 (c : Dev nD) : W8 m ρ c (Proc.devRef .tc main_v63) = shapeCast S1x64 (m ((c : Thread nD τ).loc main_arg4)) shapeCasts_S64_S1x64 := by
  refine (Hst.h3_v63 (W7 m ρ c)).trans ?_
  rw [k7_a4]

/-- The second layer's output. -/
theorem s9_v64 (c : Dev nD) : W9 m ρ c (Proc.devRef .tc main_v64)
    = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) := by
  refine (W9_arr m ρ c 2).trans ?_
  refine (Reg3.value (V8 m ρ) c).trans ?_
  show biasRelu (W8 m ρ c (Proc.devRef .tc main_v62)) (W8 m ρ c (Proc.devRef .tc main_v63)) = _
  rw [s8_v62, s8_v63, Ref.relu2 _ _ _ _ _ _ shapeCasts_S64_S1x64]

/-- The pooled sums. -/
theorem s10_v67 (c : Dev nD) : W10 m ρ c (Proc.devRef .tc main_v67)
    = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) := by
  refine (Hst.h4_v67 (W9 m ρ c)).trans ?_
  rw [s9_v64, k9_a10, Ref.sums]

/-- The counts as a column. -/
theorem s10_v72 (c : Dev nD) : W10 m ρ c (Proc.devRef .tc main_v72)
    = shapeCast S128x1 (Cert.ReferenceIdeal.Read.val_main_v105 (F := Ideal) (m ((c : Thread nD τ).loc main_arg10))) shapeCasts_S128_S128x1 := by
  refine (Hst.h4_v72 (W9 m ρ c)).trans ?_
  rw [k9_a10, Ref.cnt]

/-- The head's biases as rows. -/
theorem s10_v73 (c : Dev nD) : W10 m ρ c (Proc.devRef .tc main_v73) = shapeCast S1x64 (m ((c : Thread nD τ).loc main_arg6)) shapeCasts_S64_S1x64 := by
  refine (Hst.h4_v73 (W9 m ρ c)).trans ?_
  rw [k9_a6]
theorem s10_v74 (c : Dev nD) : W10 m ρ c (Proc.devRef .tc main_v74) = shapeCast S1x64 (m ((c : Thread nD τ).loc main_arg8)) shapeCasts_S64_S1x64 := by
  refine (Hst.h4_v74 (W9 m ρ c)).trans ?_
  rw [k9_a8]

/-- The result: the reference's result stage of the launch memory's arguments. -/
theorem result (c : Dev nD) : W11 m ρ c (Proc.devRef .tc main_v75)
    = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W11_arr m ρ c 6).trans ?_
  refine (Reg4.value (V10 m ρ) c).trans ?_
  show head (W10 m ρ c (Proc.devRef .tc main_v67)) (W10 m ρ c (Proc.devRef .tc main_v72)) (W10 m ρ c (Proc.devRef .tc main_arg5))
    (W10 m ρ c (Proc.devRef .tc main_v73)) (W10 m ρ c (Proc.devRef .tc main_arg7)) (W10 m ρ c (Proc.devRef .tc main_v74)) = _
  rw [s10_v67, s10_v72, k10_a5, s10_v73, k10_a7, s10_v74,
    Ref.out _ _ _ _ _ _ _ _ _ _ _ shapeCasts_S128_S128x1 shapeCasts_S64_S1x64]

end Cert.KernelIdeal.Val

end
-- ==== Proof.lean ====
/-
  The certificate of a two-layer graph-convolution encoder with mean pooling, a two-layer head and an L2 normalization.
  The kernel computes its dense parts in five pipelines — two projections x · wᵀ over blocks of 20000 node rows, two
  passes max (x + b) 0 over the same blocks, and the head on the 128 pooled rows in one body — and leaves the edge
  gathers and scatter-adds to the host, as the reference does throughout.  At the ideal instance every pipeline's result
  array is the reference's corresponding stage (a `tpu.matmul` of a block into a zero accumulator against one
  `dot_general`, a row sum of squares in the body against a host sum, biases broadcast in the body against broadcasts
  on the host), the host operations between them are the same on both sides, and so the two results are one function of
  the arguments.  No finiteness of the inputs is used: only the order and grouping of sums and the layout of broadcasts
  differ.  The three frames are the programs' runs; the idealization rewrote nothing.
-/
import proofs.«177845_j65317862637644_1_alg».proof.Defs
import proofs.«177845_j65317862637644_1_alg».proof.Proof.Gen.Kernel
import proofs.«177845_j65317862637644_1_alg».proof.Proof.Gen.Kernel.Skeleton
import proofs.«177845_j65317862637644_1_alg».proof.Proof.Gen.Kernel.Launch
import proofs.«177845_j65317862637644_1_alg».proof.Proof.Gen.Kernel.Points
import proofs.«177845_j65317862637644_1_alg».proof.Proof.Gen.Kernel.Frame
import proofs.«177845_j65317862637644_1_alg».proof.Proof.Gen.KernelIdeal
import proofs.«177845_j65317862637644_1_alg».proof.Proof.Gen.KernelIdeal.Skeleton
import proofs.«177845_j65317862637644_1_alg».proof.Proof.Gen.KernelIdeal.Launch
import proofs.«177845_j65317862637644_1_alg».proof.Proof.Gen.KernelIdeal.Points
import proofs.«177845_j65317862637644_1_alg».proof.Proof.Gen.KernelIdeal.Frame
import proofs.«177845_j65317862637644_1_alg».proof.Proof.Gen.ReferenceIdeal
import proofs.«177845_j65317862637644_1_alg».proof.Proof.RefRead
import proofs.«177845_j65317862637644_1_alg».proof.Proof.KernelRun
import proofs.«177845_j65317862637644_1_alg».proof.Proof.Stages
import proofs.«177845_j65317862637644_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- The reference's frame is its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the reference's result stage of the (agreeing) argument arrays. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v126 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Val.result m ρ c), (h c).2⟩) (Cert.KernelIdeal.Res.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v126_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
